-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S128x128 .f32) (main_arg2 : FVec F S128x128 .f32) (main_arg3 : FVec F S128x128 .f32) (main_arg4 : FVec F S128x128 .f32) (main_arg5 : FVec F S128 .f32) (main_arg6 : IVec S800000 32) (main_arg7 : IVec S800000 32) (main_arg8 : IVec S800000 32) (main_arg9 : IVec S800000 32) (main_arg10 : IVec S800000 32) (main_arg11 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S512x128 : Shape := ⟨2, ![512, 128]⟩
abbrev S2000x128 : Shape := ⟨2, ![2000, 128]⟩
abbrev S128x512 : Shape := ⟨2, ![128, 512]⟩
abbrev S2000x512 : Shape := ⟨2, ![2000, 512]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 94
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S800000, .i32⟩
  | .hbm, ⟨7, _⟩ => ⟨S800000, .i32⟩
  | .hbm, ⟨8, _⟩ => ⟨S800000, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S512x128, .f32⟩
  | .hbm, ⟨13, _⟩ => ⟨S50000x128, .f32⟩
  | .hbm, ⟨14, _⟩ => ⟨S50000x128, .f32⟩
  | .hbm, ⟨15, _⟩ => ⟨S50000x128, .f32⟩
  | .hbm, ⟨16, _⟩ => ⟨S50000x128, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S50000, .f32⟩
  | .hbm, ⟨34, _⟩ => ⟨S800000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S_, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S_, .f32⟩
  | .hbm, ⟨81, _⟩ => ⟨S800000, .f32⟩
  | .hbm, ⟨82, _⟩ => ⟨S_, .f32⟩
  | .hbm, ⟨83, _⟩ => ⟨S50000, .f32⟩
  | .hbm, ⟨84, _⟩ => ⟨S800000x1, .i32⟩
  | .hbm, ⟨85, _⟩ => ⟨S50000, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S50000x1, .f32⟩
  | .hbm, ⟨90, _⟩ => ⟨S50000x128, .f32⟩
  | .hbm, ⟨91, _⟩ => ⟨S50000x128, .f32⟩
  | .hbm, ⟨92, _⟩ => ⟨S1x128, .f32⟩
  | .hbm, ⟨93, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_c_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_7 : Ref sig .tc := ⟨.hbm, 55, rfl⟩
abbrev main_v31 : Ref sig .tc := ⟨.hbm, 56, rfl⟩
abbrev main_cst_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_10 : Ref sig .tc := ⟨.hbm, 67, rfl⟩
abbrev main_v40 : Ref sig .tc := ⟨.hbm, 68, rfl⟩
abbrev main_v41 : Ref sig .tc := ⟨.hbm, 69, rfl⟩
abbrev main_c_11 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_12 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_13 : Ref sig .tc := ⟨.hbm, 80, rfl⟩
abbrev main_v50 : Ref sig .tc := ⟨.hbm, 81, rfl⟩
abbrev main_cst_14 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_15 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  concatenates_S128x128_S128x128_S128x128_S128x128_S512x128_d0 : Shape.Concatenates [S128x128, S128x128, S128x128, S128x128] S512x128 0
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  slices_S2000x512_o0_0_S2000x128 : S2000x512.Slices ![0, 0] S2000x128
  slices_S2000x512_o0_128_S2000x128 : S2000x512.Slices ![0, 128] S2000x128
  slices_S2000x512_o0_256_S2000x128 : S2000x512.Slices ![0, 256] S2000x128
  slices_S2000x512_o0_384_S2000x128 : S2000x512.Slices ![0, 384] S2000x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S2000x128_S128x512_S2000x512_1_0_0_1_n_n_wf : DotDims.WF S2000x128 S128x512 S2000x512 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S2000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_3) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v58) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1_3) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S800000, .i32⟩
  | .hbm, ⟨7, _⟩ => ⟨S800000, .i32⟩
  | .hbm, ⟨8, _⟩ => ⟨S800000, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S128x128, .f32⟩
  | .hbm, ⟨13, _⟩ => ⟨S50000x128, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S_, .f32⟩
  | .hbm, ⟨55, _⟩ => ⟨S800000, .f32⟩
  | .hbm, ⟨56, _⟩ => ⟨S_, .f32⟩
  | .hbm, ⟨57, _⟩ => ⟨S50000, .f32⟩
  | .hbm, ⟨58, _⟩ => ⟨S800000x1, .i32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S128x128, .f32⟩
  | .hbm, ⟨68, _⟩ => ⟨S50000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S_, .f32⟩
  | .hbm, ⟨79, _⟩ => ⟨S50000x128, .f32⟩
  | .hbm, ⟨80, _⟩ => ⟨S800000x1, .i32⟩
  | .hbm, ⟨81, _⟩ => ⟨S50000x128, .f32⟩
  | .hbm, ⟨82, _⟩ => ⟨S_, .f32⟩
  | .hbm, ⟨83, _⟩ => ⟨S800000, .f32⟩
  | .hbm, ⟨84, _⟩ => ⟨S_, .f32⟩
  | .hbm, ⟨85, _⟩ => ⟨S50000, .f32⟩
  | .hbm, ⟨86, _⟩ => ⟨S800000x1, .i32⟩
  | .hbm, ⟨87, _⟩ => ⟨S50000, .f32⟩
  | .hbm, ⟨88, _⟩ => ⟨S_, .f32⟩
  | .hbm, ⟨89, _⟩ => ⟨S50000, .f32⟩
  | .hbm, ⟨90, _⟩ => ⟨S50000, .f32⟩
  | .hbm, ⟨91, _⟩ => ⟨S50000x1, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S128x128, .f32⟩
  | .hbm, ⟨96, _⟩ => ⟨S50000x128, .f32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S50000x128, .f32⟩
  | .hbm, ⟨103, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_13 : Ref sig .tc := ⟨.hbm, 82, rfl⟩
abbrev main_v55 : Ref sig .tc := ⟨.hbm, 83, rfl⟩
abbrev main_cst_14 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_15 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_call0_cst : Ref sig .tc := ⟨.hbm, 101, rfl⟩
abbrev main_call0_v0 : Ref sig .tc := ⟨.hbm, 102, rfl⟩
abbrev main_v71 : Ref sig .tc := ⟨.hbm, 103, rfl⟩

abbrev nD : Nat := 1
abbrev τ : Topo := Topo.v7x

variable {F : FTy → Type} [FloatOps F]

class Facts₀ : Prop where
  transposes_S128x128_S128x128_1_0 : S128x128.Transposes [1, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.K.Region0.lean ====
/-
  Region 0 of the program: the projection kernel. At every grid point the body loads a block of 2000 rows of the
  node features and the whole 512 x 128 matrix of concatenated weights, forms their product (rows against rows of
  the weights), and stores its four 128-column slices, each whole, into the four output windows. This module
  states, at any contents V of the core's buffers when the region is entered, what each output window's staging
  buffer holds after the body (the one store's payload over the two loaded blocks), proves the body's triple, and
  packages the pipeline's proof data and its body obligation.
-/
import proofs.«128560_j83330955477834_1_alg».proof.Proof.Gen.Kernel.Launch
import proofs.«128560_j83330955477834_1_alg».proof.Proof.Gen.Kernel.Skeleton
import proofs.«128560_j83330955477834_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of region 0: whatever point the pipeline is at, the window's current staging buffer holds the
    window's block of the array as the region found it — fetched at that point, or still there from the last fetch,
    the block index not having moved since. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 of region 0: whatever point the pipeline is at, the window's current staging buffer holds the
    window's block of the array as the region found it — fetched at that point, or still there from the last fetch,
    the block index not having moved since. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole buffer -/

abbrev rx0 : Rect S2000x128 := Rect.unit (s := S2000x128) ![0, 0] S2000x128.size inb_S2000x128_S2000x128_0_0
abbrev rw0 : Rect S512x128 := Rect.unit (s := S512x128) ![0, 0] S512x128.size inb_S512x128_S512x128_0_0

/-! ## What the body leaves in each output window's buffer: its one store, of a slice of the product -/

def out0_2 (x0 : Vec F S2000x128 .f32) (x1 : Vec F S512x128 .f32) : Vec F S2000x128 .f32 :=
  View.canon [⟨rx0, k0_pay2 (View.ld x0 rx0) (View.ld x1 rw0)⟩]
def out0_3 (x0 : Vec F S2000x128 .f32) (x1 : Vec F S512x128 .f32) : Vec F S2000x128 .f32 :=
  View.canon [⟨rx0, k0_pay3 (View.ld x0 rx0) (View.ld x1 rw0)⟩]
def out0_4 (x0 : Vec F S2000x128 .f32) (x1 : Vec F S512x128 .f32) : Vec F S2000x128 .f32 :=
  View.canon [⟨rx0, k0_pay4 (View.ld x0 rx0) (View.ld x1 rw0)⟩]
def out0_5 (x0 : Vec F S2000x128 .f32) (x1 : Vec F S512x128 .f32) : Vec F S2000x128 .f32 :=
  View.canon [⟨rx0, k0_pay5 (View.ld x0 rx0) (View.ld x1 rw0)⟩]

/-- One whole-buffer store covers the buffer. -/
theorem cover0 (p0 : Vec F S2000x128 .f32) (y : S2000x128.Idx) :
    ∃ pc ∈ ([⟨rx0, p0⟩] : List (View.Piece (Elt F) S2000x128 .f32)), y ∈ pc.1.set :=
  View.cover_of_tiled [⟨rx0, p0⟩] S2000x128.size (by rfl) y

/-! ## The body's triple -/

set_option maxHeartbeats 4000000 in
/-- The body on whole staging memrefs, the two inputs' at contents x0, x1 and the four outputs' at anything, runs to
    the continuation with the inputs' as they were and each output's at its slice of the product of x0 and x1. -/
theorem sound_kernel0 (c : Dev nD) (E : Set ℕ) (i : grid0.Coords)
    (arg1 : Memref sig .tc .vmem S2000x128 .f32) (harg1 : arg1.IsWhole) (arg2 : Memref sig .tc .vmem S512x128 .f32) (harg2 : arg2.IsWhole)
    (arg3 : Memref sig .tc .vmem S2000x128 .f32) (harg3 : arg3.IsWhole) (arg4 : Memref sig .tc .vmem S2000x128 .f32) (harg4 : arg4.IsWhole)
    (arg5 : Memref sig .tc .vmem S2000x128 .f32) (harg5 : arg5.IsWhole) (arg6 : Memref sig .tc .vmem S2000x128 .f32) (harg6 : arg6.IsWhole)
    (x0 : Vec F S2000x128 .f32) (x1 : Vec F S512x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1) ∗ owns (c : Thread nD τ) arg6 fullShare (out0_5 x0 x1)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The pipeline's proof data -/

/-- The proof data of pipeline 0 on core c: the arrays as the region finds them; after the body at point t each
    input's buffer still at its block and each output's at its slice of the product of the two input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
/-
  Region 1 of the program: the combine kernel. At every grid point the body loads the blocks of 2000 rows of the
  three normalised aggregates and of the self projection, and the one bias row, adds them left to right (the bias
  broadcast along the rows), takes the maximum with zero, and stores the result whole into the output window. This
  module states, at any contents V of the core's buffers when the region is entered, what the output window's
  staging buffer holds after the body, proves the body's triple, and packages the pipeline's proof data and its
  body obligation.
-/
import proofs.«128560_j83330955477834_1_alg».proof.Proof.Gen.Kernel.Launch
import proofs.«128560_j83330955477834_1_alg».proof.Proof.Gen.Kernel.Skeleton
import proofs.«128560_j83330955477834_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of region 1: whatever point the pipeline is at, the window's current staging buffer holds the
    window's block of the array as the region found it — fetched at that point, or still there from the last fetch,
    the block index not having moved since. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 of region 1: whatever point the pipeline is at, the window's current staging buffer holds the
    window's block of the array as the region found it — fetched at that point, or still there from the last fetch,
    the block index not having moved since. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 of region 1: whatever point the pipeline is at, the window's current staging buffer holds the
    window's block of the array as the region found it — fetched at that point, or still there from the last fetch,
    the block index not having moved since. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 of region 1: whatever point the pipeline is at, the window's current staging buffer holds the
    window's block of the array as the region found it — fetched at that point, or still there from the last fetch,
    the block index not having moved since. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 of region 1: whatever point the pipeline is at, the window's current staging buffer holds the
    window's block of the array as the region found it — fetched at that point, or still there from the last fetch,
    the block index not having moved since. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store is of a whole buffer -/

abbrev rx1 : Rect S2000x128 := Rect.unit (s := S2000x128) ![0, 0] S2000x128.size inb_S2000x128_S2000x128_0_0
abbrev rb1 : Rect S1x128 := Rect.unit (s := S1x128) ![0, 0] S1x128.size inb_S1x128_S1x128_0_0

/-! ## What the body leaves in the output window's buffer: its one store -/

def out1_5 (x0 x1 x2 x3 : Vec F S2000x128 .f32) (x4 : Vec F S1x128 .f32) : Vec F S2000x128 .f32 :=
  View.canon [⟨rx1, k1_pay1 (View.ld x0 rx1) (View.ld x1 rx1) (View.ld x2 rx1) (View.ld x3 rx1) (View.ld x4 rb1)⟩]

/-- One whole-buffer store covers the buffer. -/
theorem cover1 (p0 : Vec F S2000x128 .f32) (y : S2000x128.Idx) :
    ∃ pc ∈ ([⟨rx1, p0⟩] : List (View.Piece (Elt F) S2000x128 .f32)), y ∈ pc.1.set :=
  View.cover_of_tiled [⟨rx1, p0⟩] S2000x128.size (by rfl) y

/-! ## The body's triple -/

set_option maxHeartbeats 4000000 in
/-- The body on whole staging memrefs, the five inputs' at contents x0 … x4 and the output's at anything, runs to the
    continuation with the inputs' as they were and the output's at the rectified sum of x0 … x4. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S2000x128 .f32) (harg6 : arg6.IsWhole)
    (x0 x1 x2 x3 : Vec F S2000x128 .f32) (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-! ## The pipeline's proof data -/

/-- The proof data of pipeline 1 on core c: the arrays as the region finds them; after the body at point t each
    input's buffer still at its block and the output's at the rectified sum of the five input blocks; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of the program over its four segments. @main is: a host stretch that stacks the four 128 x 128 relation
  weights into one 512 x 128 matrix; region 0, the projection pipeline over 25 blocks of 2000 rows; a host stretch
  of 76 operations (per relation: negative indices wrapped, source rows gathered, scatter-added by destination,
  divided by the clamped in-degree; and the bias reshaped to a row); region 1, the combination pipeline. This
  module names what every unscoped buffer holds at each boundary between two segments (a fold from the launch
  memory: a host stretch rewrites its results, a region leaves in its arrays what its write-backs fold to), shows
  that each argument array is as launched at the end, presents each region as a segment over the thread state
  "every unscoped buffer at the boundary's contents, the generator register at some state, nothing owed", and
  launches the four segments (Lib/Pipeline/Regions.lean `θ_run_regions_kit`): the program terminates without fault
  and every unscoped buffer ends at the last boundary's contents, by name.
-/
import proofs.«128560_j83330955477834_1_alg».proof.Proof.Gen.Kernel.Launch
import proofs.«128560_j83330955477834_1_alg».proof.Proof.Gen.Kernel.Skeleton
import proofs.«128560_j83330955477834_1_alg».proof.Proof.Gen.Kernel.Points
import proofs.«128560_j83330955477834_1_alg».proof.Proof.K.Region0
import proofs.«128560_j83330955477834_1_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: a host stretch (the concatenation of the four weights), region 0 (the projection),
    a host stretch (the three relations' gather / scatter-add / divide chains and the bias reshape), region 1 (the
    combination), as the segments of Lib/Pipeline/Regions.lean `θ_run_regions_kit`.

## What every unscoped buffer holds at each boundary between two segments -/

/-- At launch: the memory the program is started on. -/
abbrev W0 : Dev nD → Valuation τ sig (Elt F) := fun c b => (s₀ m ρ).mem ((c : Dev nD), b)
/-- After the first host stretch: the stacked weights written, everything else as launched. -/
abbrev W1 : Dev nD → Valuation τ sig (Elt F) := fun c => StableHlo.after hostOps0 (W0 m ρ c)
/-- `W1` read at the TensorCore's references: what region 0 is entered on. -/
abbrev V1 : (c : Dev nD) → (b : Ref sig .tc) → Buf (Elt F) ((c : Thread nD τ).loc b) := fun c b => W1 m ρ c b
/-- After region 0: each of its six arrays at what the pipeline's write-backs leave there after the last grid
    point (an input array is never written back, so it is as entered), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- `W2` read at the TensorCore's references. -/
abbrev V2 : (c : Dev nD) → (b : Ref sig .tc) → Buf (Elt F) ((c : Thread nD τ).loc b) := fun c b => W2 m ρ c b
/-- The two facts that put region 0's arrays back among the unscoped buffers at its exit: an array holds what the
    pipeline leaves, any other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: its 76 results written over `W2`. -/
abbrev W3 : Dev nD → Valuation τ sig (Elt F) := fun c => StableHlo.after hostOps1 (W2 m ρ c)
/-- `W3` read at the TensorCore's references: what region 1 is entered on. -/
abbrev V3 : (c : Dev nD) → (b : Ref sig .tc) → Buf (Elt F) ((c : Thread nD τ).loc b) := fun c b => W3 m ρ c b
/-- After region 1: its six arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- `W4` read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- Region 0's arrays at its exit, by window (the inputs the activations and the stacked weights, the outputs the
    four projections). -/
theorem W2_out (c : Dev nD) (w : Fin cfg0.W) :
    W2 m ρ c (Proc.devRef .tc (Pipeline.arrRef spec0 w)) = (dat0 (V1 m ρ) c).arrAt w cfg0.N := W2_arr m ρ c w
/-- The program's result is region 1's output array (window 5) at what the pipeline leaves in it. -/
theorem W4_result (c : Dev nD) : W4 m ρ c (Proc.devRef .tc main_v60) = (dat1 (V3 m ρ) c).arrAt 5 cfg1.N :=
  W4_arr m ρ c 5

/-! ## Which buffers the host stretches write

Each host operation writes exactly its result buffer, so a stretch writes the buffers of this list and no other;
whether a reference is in the list is decided. -/

/-- The first stretch writes the stacked weights only. -/
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  exact List.mem_map_of_mem (by decide)
/-- The second stretch writes its 76 intermediate values: per relation the index fix-up, the gathered rows, the
    two scatter-add sums, the clamped counts broadcast and the quotient; and the reshaped bias. -/
abbrev hostOps1_W : List (Ref sig .tc) := [main_c, main_v2, main_v3, main_c_0, main_v4, main_v5, main_v6, main_v7, main_v8, main_cst, main_v9, main_v10, main_v11, main_cst_1, main_v12, main_cst_2, main_v13, main_v14, main_v15, main_cst_3, main_v16, main_v17, main_v18, main_v19, main_v20, main_c_4, main_v21, main_v22, main_c_5, main_v23, main_v24, main_v25, main_v26, main_v27, main_cst_6, main_v28, main_v29, main_v30, main_cst_7, main_v31, main_cst_8, main_v32, main_v33, main_v34, main_cst_9, main_v35, main_v36, main_v37, main_v38, main_v39, main_c_10, main_v40, main_v41, main_c_11, main_v42, main_v43, main_v44, main_v45, main_v46, main_cst_12, main_v47, main_v48, main_v49, main_cst_13, main_v50, main_cst_14, main_v51, main_v52, main_v53, main_cst_15, main_v54, main_v55, main_v56, main_v57, main_v58, main_v59]
set_option maxHeartbeats 4000000 in
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- A reference the first stretch does not write is as launched after it. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
/-- A reference the second stretch does not write is, after it, as region 0 left it. -/
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h

/-! ## The arguments end as launched

No host operation writes an argument, and a region either reads it through an input window (the activations, in
region 0) or does not touch it: the contents at the end walk back to the launch memory. -/

/-- An argument that is no array of either region and that no stretch writes. -/
theorem W4_bypass (c : Dev nD) (r : Ref sig .tc) (h1 : ∀ w, Pipeline.arrRef spec1 w ≠ r) (h3 : r ∉ (hostOps1_W : List (Ref sig .tc)))
    (h0 : ∀ w, Pipeline.arrRef spec0 w ≠ r) (h2 : r ∉ (hostOps0_W : List (Ref sig .tc))) :
    W4 m ρ c (Proc.devRef .tc r) = m ((c : Thread nD τ).loc r) :=
  calc W4 m ρ c (Proc.devRef .tc r)
    _ = W3 m ρ c (Proc.devRef .tc r) := W4_of_ne m ρ c r h1
    _ = W2 m ρ c (Proc.devRef .tc r) := W3_of m ρ c r h3
    _ = W1 m ρ c (Proc.devRef .tc r) := W2_of_ne m ρ c r h0
    _ = W0 m ρ c (Proc.devRef .tc r) := W1_of m ρ c r h2
    _ = m ((c : Thread nD τ).loc r) := rfl

/-- The activations are region 0's input window 0: an input array is as entered at the region's exit. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  W4_bypass m ρ c main_arg1 (by decide) (by decide) (by decide) (by decide)
theorem W4_main_arg2 (c : Dev nD) : W4 m ρ c (Proc.devRef .tc main_arg2) = m ((c : Thread nD τ).loc main_arg2) :=
  W4_bypass m ρ c main_arg2 (by decide) (by decide) (by decide) (by decide)
theorem W4_main_arg3 (c : Dev nD) : W4 m ρ c (Proc.devRef .tc main_arg3) = m ((c : Thread nD τ).loc main_arg3) :=
  W4_bypass m ρ c main_arg3 (by decide) (by decide) (by decide) (by decide)
theorem W4_main_arg4 (c : Dev nD) : W4 m ρ c (Proc.devRef .tc main_arg4) = m ((c : Thread nD τ).loc main_arg4) :=
  W4_bypass m ρ c main_arg4 (by decide) (by decide) (by decide) (by decide)
theorem W4_main_arg5 (c : Dev nD) : W4 m ρ c (Proc.devRef .tc main_arg5) = m ((c : Thread nD τ).loc main_arg5) :=
  W4_bypass m ρ c main_arg5 (by decide) (by decide) (by decide) (by decide)
theorem W4_main_arg6 (c : Dev nD) : W4 m ρ c (Proc.devRef .tc main_arg6) = m ((c : Thread nD τ).loc main_arg6) :=
  W4_bypass m ρ c main_arg6 (by decide) (by decide) (by decide) (by decide)
theorem W4_main_arg7 (c : Dev nD) : W4 m ρ c (Proc.devRef .tc main_arg7) = m ((c : Thread nD τ).loc main_arg7) :=
  W4_bypass m ρ c main_arg7 (by decide) (by decide) (by decide) (by decide)
theorem W4_main_arg8 (c : Dev nD) : W4 m ρ c (Proc.devRef .tc main_arg8) = m ((c : Thread nD τ).loc main_arg8) :=
  W4_bypass m ρ c main_arg8 (by decide) (by decide) (by decide) (by decide)
theorem W4_main_arg9 (c : Dev nD) : W4 m ρ c (Proc.devRef .tc main_arg9) = m ((c : Thread nD τ).loc main_arg9) :=
  W4_bypass m ρ c main_arg9 (by decide) (by decide) (by decide) (by decide)
theorem W4_main_arg10 (c : Dev nD) : W4 m ρ c (Proc.devRef .tc main_arg10) = m ((c : Thread nD τ).loc main_arg10) :=
  W4_bypass m ρ c main_arg10 (by decide) (by decide) (by decide) (by decide)
theorem W4_main_arg11 (c : Dev nD) : W4 m ρ c (Proc.devRef .tc main_arg11) = m ((c : Thread nD τ).loc main_arg11) :=
  W4_bypass m ρ c main_arg11 (by decide) (by decide) (by decide) (by decide)

/-! ## The proof data of the two pipelines and the thread state -/

/-- Neither pipeline prefetches a table. -/
abbrev adm : (p : Fin 2) → (pcfgs (F := F) p).Adm := fun p => (cfgs p).toPCfg_adm
/-- Each pipeline's proof data at the contents its region is entered on (a literal match, so that the pinned
    configuration at a numeral reduces to the printed one). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything, so no level is assigned. -/
abbrev L : GSem nD τ sig → Finset Unit := fun _ => ∅
abbrev lv : GSem nD τ sig → Unit → ℕ := fun _ _ => 0
/-- What a core holds beside its buffers through every segment: its generator register at some state, and that it
    owes nothing. -/
abbrev R (c : Dev nD) : sProp 𝕄 := iprop((∃ r, prngReg c r) ∗ ∃ W, owes (c : Thread nD τ) (0 : CellTallies nD τ sig Unit) W)
/-- A host stretch as a segment over the unscoped buffers, from the contents `W`: it ends with them at
    `StableHlo.after ops (W c)`, `R` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of either stretch allocates a buffer. -/
theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
/-- An unscoped TensorCore reference is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the `owes`: every unscoped buffer at `W4`, the generator register at some state. -/
abbrev Tₙ (c : Dev nD) : sProp 𝕄 := iprop(StableHlo.held (c : Thread nD τ) (Pipeline.ucRefs τ sig) (W4 m ρ c) ∗ ∃ r, prngReg c r)

/-! ## The two regions as segments -/

set_option backward.isDefEq.respectTransparency.types false in
/-- Region 0 as a segment over the thread state: entered with every unscoped buffer at `W1`, left with them at
    `W2`. At entry its six arrays are taken out of the unscoped buffers and the rest set aside; at exit they are
    put back at what the pipeline leaves. The generator register goes into the body invariant and comes back; no core
    owes anything; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment over the thread state: entered with every unscoped buffer at `W3`, left with them at
    `W4`. At entry its six arrays are taken out of the unscoped buffers and the rest set aside; at exit they are
    put back at what the pipeline leaves. The generator register goes into the body invariant and comes back; no core
    owes anything; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the four segments: it is the chain of its items, and the segments' programs are those items. -/
theorem main_run (c : Dev nD) : main (F := F) c = Pipeline.Seg.run (segs m ρ) := (main_chain c).trans (by chain_rfl)

set_option backward.isDefEq.respectTransparency.types false in
/-- From any memory with zero counters every weakly fair execution of @main on the TensorCores terminates without
    fault, and in every final state each unscoped buffer of each core holds `W4` there: the launch over the four
    segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the run terminates without fault and the twelve argument arrays end as launched — each read off
    `run_all` at its (unscoped) buffer and walked back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c)⟩) (run_all m ρ)

end Cert.Kernel.Hand

end
-- ==== Proof.KI.Region0.lean ====
/-
  Region 0 of the program: the projection kernel. At every grid point the body loads a block of 2000 rows of the
  node features and the whole 512 x 128 matrix of concatenated weights, forms their product (rows against rows of
  the weights), and stores its four 128-column slices, each whole, into the four output windows. This module
  states, at any contents V of the core's buffers when the region is entered, what each output window's staging
  buffer holds after the body (the one store's payload over the two loaded blocks), proves the body's triple, and
  packages the pipeline's proof data and its body obligation.
-/
import proofs.«128560_j83330955477834_1_alg».proof.Proof.Gen.KernelIdeal.Launch
import proofs.«128560_j83330955477834_1_alg».proof.Proof.Gen.KernelIdeal.Skeleton
import proofs.«128560_j83330955477834_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of region 0: whatever point the pipeline is at, the window's current staging buffer holds the
    window's block of the array as the region found it — fetched at that point, or still there from the last fetch,
    the block index not having moved since. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 of region 0: whatever point the pipeline is at, the window's current staging buffer holds the
    window's block of the array as the region found it — fetched at that point, or still there from the last fetch,
    the block index not having moved since. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole buffer -/

abbrev rx0 : Rect S2000x128 := Rect.unit (s := S2000x128) ![0, 0] S2000x128.size inb_S2000x128_S2000x128_0_0
abbrev rw0 : Rect S512x128 := Rect.unit (s := S512x128) ![0, 0] S512x128.size inb_S512x128_S512x128_0_0

/-! ## What the body leaves in each output window's buffer: its one store, of a slice of the product -/

def out0_2 (x0 : Vec F S2000x128 .f32) (x1 : Vec F S512x128 .f32) : Vec F S2000x128 .f32 :=
  View.canon [⟨rx0, k0_pay2 (View.ld x0 rx0) (View.ld x1 rw0)⟩]
def out0_3 (x0 : Vec F S2000x128 .f32) (x1 : Vec F S512x128 .f32) : Vec F S2000x128 .f32 :=
  View.canon [⟨rx0, k0_pay3 (View.ld x0 rx0) (View.ld x1 rw0)⟩]
def out0_4 (x0 : Vec F S2000x128 .f32) (x1 : Vec F S512x128 .f32) : Vec F S2000x128 .f32 :=
  View.canon [⟨rx0, k0_pay4 (View.ld x0 rx0) (View.ld x1 rw0)⟩]
def out0_5 (x0 : Vec F S2000x128 .f32) (x1 : Vec F S512x128 .f32) : Vec F S2000x128 .f32 :=
  View.canon [⟨rx0, k0_pay5 (View.ld x0 rx0) (View.ld x1 rw0)⟩]

/-- One whole-buffer store covers the buffer. -/
theorem cover0 (p0 : Vec F S2000x128 .f32) (y : S2000x128.Idx) :
    ∃ pc ∈ ([⟨rx0, p0⟩] : List (View.Piece (Elt F) S2000x128 .f32)), y ∈ pc.1.set :=
  View.cover_of_tiled [⟨rx0, p0⟩] S2000x128.size (by rfl) y

/-! ## The body's triple -/

set_option maxHeartbeats 4000000 in
/-- The body on whole staging memrefs, the two inputs' at contents x0, x1 and the four outputs' at anything, runs to
    the continuation with the inputs' as they were and each output's at its slice of the product of x0 and x1. -/
theorem sound_kernel0 (c : Dev nD) (E : Set ℕ) (i : grid0.Coords)
    (arg1 : Memref sig .tc .vmem S2000x128 .f32) (harg1 : arg1.IsWhole) (arg2 : Memref sig .tc .vmem S512x128 .f32) (harg2 : arg2.IsWhole)
    (arg3 : Memref sig .tc .vmem S2000x128 .f32) (harg3 : arg3.IsWhole) (arg4 : Memref sig .tc .vmem S2000x128 .f32) (harg4 : arg4.IsWhole)
    (arg5 : Memref sig .tc .vmem S2000x128 .f32) (harg5 : arg5.IsWhole) (arg6 : Memref sig .tc .vmem S2000x128 .f32) (harg6 : arg6.IsWhole)
    (x0 : Vec F S2000x128 .f32) (x1 : Vec F S512x128 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1) ∗ owns (c : Thread nD τ) arg6 fullShare (out0_5 x0 x1)) -∗ K ⟨⟩))
      ⊢ wp frame (wpE (defs₀ (F := F)) Variants.none c none) E (cc0__proj_kernel i arg1 harg1 arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The pipeline's proof data -/

/-- The proof data of pipeline 0 on core c: the arrays as the region finds them; after the body at point t each
    input's buffer still at its block and each output's at its slice of the product of the two input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
    | ⟨5, _⟩ => out0_5 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of the program: the combine kernel. At every grid point the body loads the blocks of 2000 rows of the
  three normalised aggregates and of the self projection, and the one bias row, adds them left to right (the bias
  broadcast along the rows), takes the maximum with zero, and stores the result whole into the output window. This
  module states, at any contents V of the core's buffers when the region is entered, what the output window's
  staging buffer holds after the body, proves the body's triple, and packages the pipeline's proof data and its
  body obligation.
-/
import proofs.«128560_j83330955477834_1_alg».proof.Proof.Gen.KernelIdeal.Launch
import proofs.«128560_j83330955477834_1_alg».proof.Proof.Gen.KernelIdeal.Skeleton
import proofs.«128560_j83330955477834_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of region 1: whatever point the pipeline is at, the window's current staging buffer holds the
    window's block of the array as the region found it — fetched at that point, or still there from the last fetch,
    the block index not having moved since. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 of region 1: whatever point the pipeline is at, the window's current staging buffer holds the
    window's block of the array as the region found it — fetched at that point, or still there from the last fetch,
    the block index not having moved since. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 of region 1: whatever point the pipeline is at, the window's current staging buffer holds the
    window's block of the array as the region found it — fetched at that point, or still there from the last fetch,
    the block index not having moved since. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 of region 1: whatever point the pipeline is at, the window's current staging buffer holds the
    window's block of the array as the region found it — fetched at that point, or still there from the last fetch,
    the block index not having moved since. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 of region 1: whatever point the pipeline is at, the window's current staging buffer holds the
    window's block of the array as the region found it — fetched at that point, or still there from the last fetch,
    the block index not having moved since. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store is of a whole buffer -/

abbrev rx1 : Rect S2000x128 := Rect.unit (s := S2000x128) ![0, 0] S2000x128.size inb_S2000x128_S2000x128_0_0
abbrev rb1 : Rect S1x128 := Rect.unit (s := S1x128) ![0, 0] S1x128.size inb_S1x128_S1x128_0_0

/-! ## What the body leaves in the output window's buffer: its one store -/

def out1_5 (x0 x1 x2 x3 : Vec F S2000x128 .f32) (x4 : Vec F S1x128 .f32) : Vec F S2000x128 .f32 :=
  View.canon [⟨rx1, k1_pay1 (View.ld x0 rx1) (View.ld x1 rx1) (View.ld x2 rx1) (View.ld x3 rx1) (View.ld x4 rb1)⟩]

/-- One whole-buffer store covers the buffer. -/
theorem cover1 (p0 : Vec F S2000x128 .f32) (y : S2000x128.Idx) :
    ∃ pc ∈ ([⟨rx1, p0⟩] : List (View.Piece (Elt F) S2000x128 .f32)), y ∈ pc.1.set :=
  View.cover_of_tiled [⟨rx1, p0⟩] S2000x128.size (by rfl) y

/-! ## The body's triple -/

set_option maxHeartbeats 4000000 in
/-- The body on whole staging memrefs, the five inputs' at contents x0 … x4 and the output's at anything, runs to the
    continuation with the inputs' as they were and the output's at the rectified sum of x0 … x4. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S2000x128 .f32) (harg6 : arg6.IsWhole)
    (x0 x1 x2 x3 : Vec F S2000x128 .f32) (x4 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__combine_kernel i arg1 harg1 arg2 harg2 arg3 harg3 arg4 harg4 arg5 harg5 arg6 harg6) K := by
  simp only [cc1__combine_kernel_eq_skeleton]; unfold cc1__combine_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-! ## The pipeline's proof data -/

/-- The proof data of pipeline 1 on core c: the arrays as the region finds them; after the body at point t each
    input's buffer still at its block and the output's at the rectified sum of the five input blocks; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of the program over its four segments. @main is: a host stretch that stacks the four 128 x 128 relation
  weights into one 512 x 128 matrix; region 0, the projection pipeline over 25 blocks of 2000 rows; a host stretch
  of 76 operations (per relation: negative indices wrapped, source rows gathered, scatter-added by destination,
  divided by the clamped in-degree; and the bias reshaped to a row); region 1, the combination pipeline. This
  module names what every unscoped buffer holds at each boundary between two segments (a fold from the launch
  memory: a host stretch rewrites its results, a region leaves in its arrays what its write-backs fold to), shows
  that each argument array is as launched at the end, presents each region as a segment over the thread state
  "every unscoped buffer at the boundary's contents, the generator register at some state, nothing owed", and
  launches the four segments (Lib/Pipeline/Regions.lean `θ_run_regions_kit`): the program terminates without fault
  and every unscoped buffer ends at the last boundary's contents, by name.
-/
import proofs.«128560_j83330955477834_1_alg».proof.Proof.Gen.KernelIdeal.Launch
import proofs.«128560_j83330955477834_1_alg».proof.Proof.Gen.KernelIdeal.Skeleton
import proofs.«128560_j83330955477834_1_alg».proof.Proof.Gen.KernelIdeal.Points
import proofs.«128560_j83330955477834_1_alg».proof.Proof.KI.Region0
import proofs.«128560_j83330955477834_1_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: a host stretch (the concatenation of the four weights), region 0 (the projection),
    a host stretch (the three relations' gather / scatter-add / divide chains and the bias reshape), region 1 (the
    combination), as the segments of Lib/Pipeline/Regions.lean `θ_run_regions_kit`.

## What every unscoped buffer holds at each boundary between two segments -/

/-- At launch: the memory the program is started on. -/
abbrev W0 : Dev nD → Valuation τ sig (Elt F) := fun c b => (s₀ m ρ).mem ((c : Dev nD), b)
/-- After the first host stretch: the stacked weights written, everything else as launched. -/
abbrev W1 : Dev nD → Valuation τ sig (Elt F) := fun c => StableHlo.after hostOps0 (W0 m ρ c)
/-- `W1` read at the TensorCore's references: what region 0 is entered on. -/
abbrev V1 : (c : Dev nD) → (b : Ref sig .tc) → Buf (Elt F) ((c : Thread nD τ).loc b) := fun c b => W1 m ρ c b
/-- After region 0: each of its six arrays at what the pipeline's write-backs leave there after the last grid
    point (an input array is never written back, so it is as entered), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- `W2` read at the TensorCore's references. -/
abbrev V2 : (c : Dev nD) → (b : Ref sig .tc) → Buf (Elt F) ((c : Thread nD τ).loc b) := fun c b => W2 m ρ c b
/-- The two facts that put region 0's arrays back among the unscoped buffers at its exit: an array holds what the
    pipeline leaves, any other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: its 76 results written over `W2`. -/
abbrev W3 : Dev nD → Valuation τ sig (Elt F) := fun c => StableHlo.after hostOps1 (W2 m ρ c)
/-- `W3` read at the TensorCore's references: what region 1 is entered on. -/
abbrev V3 : (c : Dev nD) → (b : Ref sig .tc) → Buf (Elt F) ((c : Thread nD τ).loc b) := fun c b => W3 m ρ c b
/-- After region 1: its six arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- `W4` read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- Region 0's arrays at its exit, by window (the inputs the activations and the stacked weights, the outputs the
    four projections). -/
theorem W2_out (c : Dev nD) (w : Fin cfg0.W) :
    W2 m ρ c (Proc.devRef .tc (Pipeline.arrRef spec0 w)) = (dat0 (V1 m ρ) c).arrAt w cfg0.N := W2_arr m ρ c w
/-- The program's result is region 1's output array (window 5) at what the pipeline leaves in it. -/
theorem W4_result (c : Dev nD) : W4 m ρ c (Proc.devRef .tc main_v60) = (dat1 (V3 m ρ) c).arrAt 5 cfg1.N :=
  W4_arr m ρ c 5

/-! ## Which buffers the host stretches write

Each host operation writes exactly its result buffer, so a stretch writes the buffers of this list and no other;
whether a reference is in the list is decided. -/

/-- The first stretch writes the stacked weights only. -/
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  exact List.mem_map_of_mem (by decide)
/-- The second stretch writes its 76 intermediate values: per relation the index fix-up, the gathered rows, the
    two scatter-add sums, the clamped counts broadcast and the quotient; and the reshaped bias. -/
abbrev hostOps1_W : List (Ref sig .tc) := [main_c, main_v2, main_v3, main_c_0, main_v4, main_v5, main_v6, main_v7, main_v8, main_cst, main_v9, main_v10, main_v11, main_cst_1, main_v12, main_cst_2, main_v13, main_v14, main_v15, main_cst_3, main_v16, main_v17, main_v18, main_v19, main_v20, main_c_4, main_v21, main_v22, main_c_5, main_v23, main_v24, main_v25, main_v26, main_v27, main_cst_6, main_v28, main_v29, main_v30, main_cst_7, main_v31, main_cst_8, main_v32, main_v33, main_v34, main_cst_9, main_v35, main_v36, main_v37, main_v38, main_v39, main_c_10, main_v40, main_v41, main_c_11, main_v42, main_v43, main_v44, main_v45, main_v46, main_cst_12, main_v47, main_v48, main_v49, main_cst_13, main_v50, main_cst_14, main_v51, main_v52, main_v53, main_cst_15, main_v54, main_v55, main_v56, main_v57, main_v58, main_v59]
set_option maxHeartbeats 4000000 in
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- A reference the first stretch does not write is as launched after it. -/
theorem W1_of (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h
/-- A reference the second stretch does not write is, after it, as region 0 left it. -/
theorem W3_of (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h

/-! ## The arguments end as launched

No host operation writes an argument, and a region either reads it through an input window (the activations, in
region 0) or does not touch it: the contents at the end walk back to the launch memory. -/

/-- An argument that is no array of either region and that no stretch writes. -/
theorem W4_bypass (c : Dev nD) (r : Ref sig .tc) (h1 : ∀ w, Pipeline.arrRef spec1 w ≠ r) (h3 : r ∉ (hostOps1_W : List (Ref sig .tc)))
    (h0 : ∀ w, Pipeline.arrRef spec0 w ≠ r) (h2 : r ∉ (hostOps0_W : List (Ref sig .tc))) :
    W4 m ρ c (Proc.devRef .tc r) = m ((c : Thread nD τ).loc r) :=
  calc W4 m ρ c (Proc.devRef .tc r)
    _ = W3 m ρ c (Proc.devRef .tc r) := W4_of_ne m ρ c r h1
    _ = W2 m ρ c (Proc.devRef .tc r) := W3_of m ρ c r h3
    _ = W1 m ρ c (Proc.devRef .tc r) := W2_of_ne m ρ c r h0
    _ = W0 m ρ c (Proc.devRef .tc r) := W1_of m ρ c r h2
    _ = m ((c : Thread nD τ).loc r) := rfl

/-- The activations are region 0's input window 0: an input array is as entered at the region's exit. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  W4_bypass m ρ c main_arg1 (by decide) (by decide) (by decide) (by decide)
theorem W4_main_arg2 (c : Dev nD) : W4 m ρ c (Proc.devRef .tc main_arg2) = m ((c : Thread nD τ).loc main_arg2) :=
  W4_bypass m ρ c main_arg2 (by decide) (by decide) (by decide) (by decide)
theorem W4_main_arg3 (c : Dev nD) : W4 m ρ c (Proc.devRef .tc main_arg3) = m ((c : Thread nD τ).loc main_arg3) :=
  W4_bypass m ρ c main_arg3 (by decide) (by decide) (by decide) (by decide)
theorem W4_main_arg4 (c : Dev nD) : W4 m ρ c (Proc.devRef .tc main_arg4) = m ((c : Thread nD τ).loc main_arg4) :=
  W4_bypass m ρ c main_arg4 (by decide) (by decide) (by decide) (by decide)
theorem W4_main_arg5 (c : Dev nD) : W4 m ρ c (Proc.devRef .tc main_arg5) = m ((c : Thread nD τ).loc main_arg5) :=
  W4_bypass m ρ c main_arg5 (by decide) (by decide) (by decide) (by decide)
theorem W4_main_arg6 (c : Dev nD) : W4 m ρ c (Proc.devRef .tc main_arg6) = m ((c : Thread nD τ).loc main_arg6) :=
  W4_bypass m ρ c main_arg6 (by decide) (by decide) (by decide) (by decide)
theorem W4_main_arg7 (c : Dev nD) : W4 m ρ c (Proc.devRef .tc main_arg7) = m ((c : Thread nD τ).loc main_arg7) :=
  W4_bypass m ρ c main_arg7 (by decide) (by decide) (by decide) (by decide)
theorem W4_main_arg8 (c : Dev nD) : W4 m ρ c (Proc.devRef .tc main_arg8) = m ((c : Thread nD τ).loc main_arg8) :=
  W4_bypass m ρ c main_arg8 (by decide) (by decide) (by decide) (by decide)
theorem W4_main_arg9 (c : Dev nD) : W4 m ρ c (Proc.devRef .tc main_arg9) = m ((c : Thread nD τ).loc main_arg9) :=
  W4_bypass m ρ c main_arg9 (by decide) (by decide) (by decide) (by decide)
theorem W4_main_arg10 (c : Dev nD) : W4 m ρ c (Proc.devRef .tc main_arg10) = m ((c : Thread nD τ).loc main_arg10) :=
  W4_bypass m ρ c main_arg10 (by decide) (by decide) (by decide) (by decide)
theorem W4_main_arg11 (c : Dev nD) : W4 m ρ c (Proc.devRef .tc main_arg11) = m ((c : Thread nD τ).loc main_arg11) :=
  W4_bypass m ρ c main_arg11 (by decide) (by decide) (by decide) (by decide)

/-! ## The proof data of the two pipelines and the thread state -/

/-- Neither pipeline prefetches a table. -/
abbrev adm : (p : Fin 2) → (pcfgs (F := F) p).Adm := fun p => (cfgs p).toPCfg_adm
/-- Each pipeline's proof data at the contents its region is entered on (a literal match, so that the pinned
    configuration at a numeral reduces to the printed one). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything, so no level is assigned. -/
abbrev L : GSem nD τ sig → Finset Unit := fun _ => ∅
abbrev lv : GSem nD τ sig → Unit → ℕ := fun _ _ => 0
/-- What a core holds beside its buffers through every segment: its generator register at some state, and that it
    owes nothing. -/
abbrev R (c : Dev nD) : sProp 𝕄 := iprop((∃ r, prngReg c r) ∗ ∃ W, owes (c : Thread nD τ) (0 : CellTallies nD τ sig Unit) W)
/-- A host stretch as a segment over the unscoped buffers, from the contents `W`: it ends with them at
    `StableHlo.after ops (W c)`, `R` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of either stretch allocates a buffer. -/
theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
/-- An unscoped TensorCore reference is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the `owes`: every unscoped buffer at `W4`, the generator register at some state. -/
abbrev Tₙ (c : Dev nD) : sProp 𝕄 := iprop(StableHlo.held (c : Thread nD τ) (Pipeline.ucRefs τ sig) (W4 m ρ c) ∗ ∃ r, prngReg c r)

/-! ## The two regions as segments -/

set_option backward.isDefEq.respectTransparency.types false in
/-- Region 0 as a segment over the thread state: entered with every unscoped buffer at `W1`, left with them at
    `W2`. At entry its six arrays are taken out of the unscoped buffers and the rest set aside; at exit they are
    put back at what the pipeline leaves. The generator register goes into the body invariant and comes back; no core
    owes anything; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment over the thread state: entered with every unscoped buffer at `W3`, left with them at
    `W4`. At entry its six arrays are taken out of the unscoped buffers and the rest set aside; at exit they are
    put back at what the pipeline leaves. The generator register goes into the body invariant and comes back; no core
    owes anything; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the four segments: it is the chain of its items, and the segments' programs are those items. -/
theorem main_run (c : Dev nD) : main (F := F) c = Pipeline.Seg.run (segs m ρ) := (main_chain c).trans (by chain_rfl)

set_option backward.isDefEq.respectTransparency.types false in
/-- From any memory with zero counters every weakly fair execution of @main on the TensorCores terminates without
    fault, and in every final state each unscoped buffer of each core holds `W4` there: the launch over the four
    segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the run terminates without fault and the twelve argument arrays end as launched — each read off
    `run_all` at its (unscoped) buffer and walked back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c)⟩) (run_all m ρ)

end Cert.KernelIdeal.Hand

end
-- ==== Proof.KPay.lean ====
/-
  The kernel's payloads read at one element, at the ideal values (floats are extended reals, every operation exact).

  Region 0 multiplies a block of 2000 rows by the transpose of the concatenated weights [512,128] and stores the four
  128-column slices of the product; read at row p and column q, slice s is the sum over k of the block at (p, k) times
  the concatenated weights at (128·s + q, k). The concatenation of four [128,128] arrays along axis 0, read at row
  128·s + q, is the s-th array at row q. Region 1 stores the maximum with zero of the left-to-right sum of four blocks
  and a bias row broadcast over the rows.
-/
import proofs.«128560_j83330955477834_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-- The dimension numbers of region 0's matrix product: [2000,128] times [128,512], contracting the left operand's
    axis 1 with the right operand's axis 0. -/
abbrev D0 : DotDims S2000x128 S128x512 S2000x512 := dot_S2000x128_S128x512_S2000x512_1_0_0_1_n_n

/-- The left operand's row is the result's row … -/
theorem D0_lhs0 (i : S2000x512.Idx) (q : D0.contr.Idx) : (D0.lhsIdx i q 0).val = (i 0).val := by
  unfold DotDims.lhsIdx
  rw [dif_neg (show ¬(0 : Fin S2000x128.rank) ∈ D0.lhsBatch by decide), dif_pos (show (0 : Fin S2000x128.rank) ∈ D0.lhsNonContracting by decide)]
  rfl
/-- … its column is the contraction coordinate; -/
theorem D0_lhs1 (i : S2000x512.Idx) (q : D0.contr.Idx) : (D0.lhsIdx i q 1).val = (q ⟨0, by decide⟩).val :=
  D0.lhsIdx_val_of_single rfl i q
/-- the right operand's row is the contraction coordinate … -/
theorem D0_rhs0 (i : S2000x512.Idx) (q : D0.contr.Idx) : (D0.rhsIdx i q 0).val = (q ⟨0, by decide⟩).val :=
  D0.rhsIdx_val_of_single rfl i q
/-- … and its column is the result's column. -/
theorem D0_rhs1 (i : S2000x512.Idx) (q : D0.contr.Idx) : (D0.rhsIdx i q 1).val = (i 1).val := by
  unfold DotDims.rhsIdx
  rw [dif_neg (show ¬(1 : Fin S128x512.rank) ∈ D0.rhsBatch by decide), dif_pos (show (1 : Fin S128x512.rank) ∈ D0.rhsNonContracting by decide)]
  rfl

/-- The whole product at (p, c): the narrowing format changes and the cast to the same shape are the identity, the
    transpose swaps the two coordinates, and the matrix product into a zero accumulator is the plain sum over the
    contracted coordinate, re-indexed by k : Fin 128. -/
theorem pay1_apply (x : Vec Ideal S2000x128 .f32) (w : Vec Ideal S512x128 .f32) (p : Fin 2000) (c : Fin 512) :
    k0_pay1 (F := Ideal) x w (ix2 p c) = ∑ k : Fin 128, x (ix2 p k) * w (ix2 c k) := by
  unfold k0_pay1
  refine (Ideal.matmul_constant_zero_apply D0 none _ _ (ix2 p c)).trans ?_
  rw [← Equiv.sum_comp (contrEquiv1 D0 128 rfl rfl).symm]
  refine Finset.sum_congr rfl fun k _ => ?_
  have hk := contrEquiv1_symm_val D0 128 rfl rfl k
  have el : D0.lhsIdx (ix2 p c) ((contrEquiv1 D0 128 rfl rfl).symm k) = ix2 p k := funext fun a => Fin.ext (by
    match a with
    | ⟨0, _⟩ => exact D0_lhs0 _ _
    | ⟨1, _⟩ => exact (D0_lhs1 _ _).trans hk)
  have er : D0.rhsIdx (ix2 p c) ((contrEquiv1 D0 128 rfl rfl).symm k) = ix2 k c := funext fun a => Fin.ext (by
    match a with
    | ⟨0, _⟩ => exact (D0_rhs0 _ _).trans hk
    | ⟨1, _⟩ => exact D0_rhs1 _ _)
  rw [el, er]
  congr 1
  refine (transpose_apply [1, 0] _ transposes_S512x128_p1_0_S128x512 (ix2 k c) (ix2 c k) (fun b => match b with
    | ⟨0, _⟩ => rfl
    | ⟨1, _⟩ => rfl)).trans ?_
  show shapeCast S512x128 w shapeCasts_S512x128_S512x128 (ix2 c k) = w (ix2 c k)
  rw [shapeCast_self]

/-- Region 0's first stored slice (columns 0 … 127 of the product): the block's rows against rows q of the
    concatenated weights. The slice shifts the column by its offset. -/
theorem pay2_apply (x : Vec Ideal S2000x128 .f32) (w : Vec Ideal S512x128 .f32) (p : Fin 2000) (q : Fin 128) :
    k0_pay2 (F := Ideal) x w (ix2 p q) = ∑ k : Fin 128, x (ix2 p k) * w (ix2 (⟨q.val, by omega⟩ : Fin 512) k) := by
  unfold k0_pay2
  refine (extractStridedSlice_apply ![0, 0] _ slices_S2000x512_o0_0_S2000x128 (ix2 p q)
    (ix2 p (⟨q.val, by omega⟩ : Fin 512)) (fun a => match a with
    | ⟨0, _⟩ => by show p.val = 0 + p.val; omega
    | ⟨1, _⟩ => by show q.val = 0 + q.val; omega)).trans ?_
  exact pay1_apply x w p _

/-- The second slice (columns 128 … 255): against rows 128 + q. -/
theorem pay3_apply (x : Vec Ideal S2000x128 .f32) (w : Vec Ideal S512x128 .f32) (p : Fin 2000) (q : Fin 128) :
    k0_pay3 (F := Ideal) x w (ix2 p q) = ∑ k : Fin 128, x (ix2 p k) * w (ix2 (⟨128 + q.val, by omega⟩ : Fin 512) k) := by
  unfold k0_pay3
  refine (extractStridedSlice_apply ![0, 128] _ slices_S2000x512_o0_128_S2000x128 (ix2 p q)
    (ix2 p (⟨128 + q.val, by omega⟩ : Fin 512)) (fun a => match a with
    | ⟨0, _⟩ => by show p.val = 0 + p.val; omega
    | ⟨1, _⟩ => by show 128 + q.val = 128 + q.val; omega)).trans ?_
  exact pay1_apply x w p _

/-- The third slice (columns 256 … 383): against rows 256 + q. -/
theorem pay4_apply (x : Vec Ideal S2000x128 .f32) (w : Vec Ideal S512x128 .f32) (p : Fin 2000) (q : Fin 128) :
    k0_pay4 (F := Ideal) x w (ix2 p q) = ∑ k : Fin 128, x (ix2 p k) * w (ix2 (⟨256 + q.val, by omega⟩ : Fin 512) k) := by
  unfold k0_pay4
  refine (extractStridedSlice_apply ![0, 256] _ slices_S2000x512_o0_256_S2000x128 (ix2 p q)
    (ix2 p (⟨256 + q.val, by omega⟩ : Fin 512)) (fun a => match a with
    | ⟨0, _⟩ => by show p.val = 0 + p.val; omega
    | ⟨1, _⟩ => by show 256 + q.val = 256 + q.val; omega)).trans ?_
  exact pay1_apply x w p _

/-- The fourth slice (columns 384 … 511): against rows 384 + q. -/
theorem pay5_apply (x : Vec Ideal S2000x128 .f32) (w : Vec Ideal S512x128 .f32) (p : Fin 2000) (q : Fin 128) :
    k0_pay5 (F := Ideal) x w (ix2 p q) = ∑ k : Fin 128, x (ix2 p k) * w (ix2 (⟨384 + q.val, by omega⟩ : Fin 512) k) := by
  unfold k0_pay5
  refine (extractStridedSlice_apply ![0, 384] _ slices_S2000x512_o0_384_S2000x128 (ix2 p q)
    (ix2 p (⟨384 + q.val, by omega⟩ : Fin 512)) (fun a => match a with
    | ⟨0, _⟩ => by show p.val = 0 + p.val; omega
    | ⟨1, _⟩ => by show 384 + q.val = 384 + q.val; omega)).trans ?_
  exact pay1_apply x w p _

/-- The concatenation along axis 0 of four [128,128] arrays read at row q (the first piece's span): the first array
    at row q. -/
theorem wcat_apply0 (W0 W1 W2 W3 : FVec Ideal S128x128 .f32) (q k : Fin 128) :
    concatenate S512x128 0 [⟨S128x128, W0⟩, ⟨S128x128, W1⟩, ⟨S128x128, W2⟩, ⟨S128x128, W3⟩]
      concatenates_S128x128_S128x128_S128x128_S128x128_S512x128_d0 (ix2 (⟨q.val, by omega⟩ : Fin 512) k) = W0 (ix2 q k) := by
  refine concatenate_apply_piece (0 : Fin S512x128.rank) _ _ _ 0 (by simp) S128x128 W0 rfl rfl 0 rfl (ix2 q k)
    (fun b hb => ?_) ?_
  · match b with
    | ⟨0, _⟩ => exact absurd rfl hb
    | ⟨1, _⟩ => rfl
  · show 0 + q.val = q.val
    omega

/-- At row 128 + q (the second piece's span, after 128 rows): the second array at row q. -/
theorem wcat_apply1 (W0 W1 W2 W3 : FVec Ideal S128x128 .f32) (q k : Fin 128) :
    concatenate S512x128 0 [⟨S128x128, W0⟩, ⟨S128x128, W1⟩, ⟨S128x128, W2⟩, ⟨S128x128, W3⟩]
      concatenates_S128x128_S128x128_S128x128_S128x128_S512x128_d0 (ix2 (⟨128 + q.val, by omega⟩ : Fin 512) k) = W1 (ix2 q k) := by
  refine concatenate_apply_piece (0 : Fin S512x128.rank) _ _ _ 1 (by simp) S128x128 W1 rfl rfl 128 rfl (ix2 q k)
    (fun b hb => ?_) ?_
  · match b with
    | ⟨0, _⟩ => exact absurd rfl hb
    | ⟨1, _⟩ => rfl
  · show 128 + q.val = 128 + q.val
    omega

/-- At row 256 + q: the third array at row q. -/
theorem wcat_apply2 (W0 W1 W2 W3 : FVec Ideal S128x128 .f32) (q k : Fin 128) :
    concatenate S512x128 0 [⟨S128x128, W0⟩, ⟨S128x128, W1⟩, ⟨S128x128, W2⟩, ⟨S128x128, W3⟩]
      concatenates_S128x128_S128x128_S128x128_S128x128_S512x128_d0 (ix2 (⟨256 + q.val, by omega⟩ : Fin 512) k) = W2 (ix2 q k) := by
  refine concatenate_apply_piece (0 : Fin S512x128.rank) _ _ _ 2 (by simp) S128x128 W2 rfl rfl 256 rfl (ix2 q k)
    (fun b hb => ?_) ?_
  · match b with
    | ⟨0, _⟩ => exact absurd rfl hb
    | ⟨1, _⟩ => rfl
  · show 256 + q.val = 256 + q.val
    omega

/-- At row 384 + q: the fourth array at row q. -/
theorem wcat_apply3 (W0 W1 W2 W3 : FVec Ideal S128x128 .f32) (q k : Fin 128) :
    concatenate S512x128 0 [⟨S128x128, W0⟩, ⟨S128x128, W1⟩, ⟨S128x128, W2⟩, ⟨S128x128, W3⟩]
      concatenates_S128x128_S128x128_S128x128_S128x128_S512x128_d0 (ix2 (⟨384 + q.val, by omega⟩ : Fin 512) k) = W3 (ix2 q k) := by
  refine concatenate_apply_piece (0 : Fin S512x128.rank) _ _ _ 3 (by simp) S128x128 W3 rfl rfl 384 rfl (ix2 q k)
    (fun b hb => ?_) ?_
  · match b with
    | ⟨0, _⟩ => exact absurd rfl hb
    | ⟨1, _⟩ => rfl
  · show 384 + q.val = 384 + q.val
    omega

/-- Region 1's stored block at (p, q): the casts to the same shape are the identity, the bias row broadcast over the
    rows reads its one row at column q, and the broadcast zero word is the extended real 0; what is left is the maximum
    with 0 of the left-to-right sum. -/
theorem combine_apply (a b c d : Vec Ideal S2000x128 .f32) (bias : Vec Ideal S1x128 .f32) (p : Fin 2000) (q : Fin 128) :
    k1_pay1 (F := Ideal) a b c d bias (ix2 p q)
      = max ((((a (ix2 p q) + b (ix2 p q)) + c (ix2 p q)) + d (ix2 p q)) + bias (ix2 (0 : Fin 1) q)) 0 := by
  unfold k1_pay1
  simp only [shapeCast_self]
  show max ((((a (ix2 p q) + b (ix2 p q)) + c (ix2 p q)) + d (ix2 p q))
      + broadcastTo S2000x128 bias broadcasts_S1x128_S2000x128 (ix2 p q)) (Ideal.ofBits .f32 0x00000000#32) = _
  rw [broadcastTo_1b_ab_apply, Ideal.ofBits_zero_f32]

end Cert.KernelIdeal.Pay

end
-- ==== Proof.KValue.lean ====
/-
  The kernel's arrays after each region, as whole-array functions of the arrays the region finds.

  Region 0 runs over 25 grid points; at point t every window of 2000-row blocks is at rows 2000·t … 2000·t + 1999 and
  the stacked weights' window is the whole [512,128] array. What the point writes back to output window 2 + s is the
  stored slice s of the block product, which at (p, q) is the block's row p against row 128·s + q of the weights; so
  it is block t of ONE function of the two arrays (projArr). The 25 blocks cover the [50000,128] array (row r is in
  block r / 2000), hence the array ends at that function. Region 1 is the same argument for the combine step
  (combArr): the rectified left-to-right sum of four arrays and the bias row broadcast along the rows.
-/
import proofs.«128560_j83330955477834_1_alg».proof.Proof.KI.Region0
import proofs.«128560_j83330955477834_1_alg».proof.Proof.KI.Region1
import proofs.«128560_j83330955477834_1_alg».proof.Proof.KPay
import proofs.«128560_j83330955477834_1_alg».proof.Proof.Gen.KernelIdeal.Points
import Idealize.ShloMosaic.Lib.Pipeline.Value
import Idealize.ShloMosaic.Lib.ValueIdx
import Idealize.ShloMosaic.PureOps.Ideal

set_option maxRecDepth 16384

noncomputable section

namespace Cert.KernelIdeal.KValue

open Cert.KernelIdeal Cert.KernelIdeal.Gen Cert.KernelIdeal.Hand Cert.KernelIdeal.Pay
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The zero offsets of a whole-buffer access, however spelt. -/
theorem hz : (![0, 0] : Fin 2 → Nat) = fun _ => 0 := funext fun a => by fin_cases a <;> rfl

/-! ## Region 0: the four slices of the projection -/

/-- The printed index maps of region 0, decided over the grid: every window of 2000-row blocks is at block (t, 0) at
    point t, and the weights' window is its one block at every point. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Rows of X against rows 128·s + q of the stacked weights WC, as one array. -/
def projArr (X : FVec Ideal S50000x128 .f32) (WC : FVec Ideal S512x128 .f32) (s : Fin 4) : FVec Ideal S50000x128 .f32 :=
  fun i => ∑ k : Fin 128, X (ix2 (⟨(i 0).val, idx2_lt0 i⟩ : Fin 50000) k)
    * WC (ix2 (⟨128 * s.val + (i 1).val, by have := idx2_lt1 i; have := s.isLt; omega⟩ : Fin 512) k)

theorem projArr_apply (X : FVec Ideal S50000x128 .f32) (WC : FVec Ideal S512x128 .f32) (s : Fin 4) (p : Fin 50000) (q : Fin 128) :
    projArr X WC s (ix2 p q) = ∑ k : Fin 128, X (ix2 p k) * WC (ix2 (⟨128 * s.val + q.val, by omega⟩ : Fin 512) k) := rfl

/-- The weights' window is the whole array: an element of its block sits at the same index of the array. -/
theorem emb0_1 (t : Fin cfg0.N) (r : Fin 512) (k : Fin 128) :
    ((cfg0.win 1).blk t).view.emb (ix2 r k) = ix2 r k := by
  have e := idx_facts0 t
  funext a; apply Fin.ext
  match a with
  | ⟨0, _⟩ => show win0_1.index t (0 : Fin 2) * 512 + 1 * r.val = r.val; omega
  | ⟨1, _⟩ => show win0_1.index t (1 : Fin 2) * 128 + 1 * k.val = k.val; omega

/-- An element (p, k) of point t's block of window 0 sits at row 2000·t + p, column k of the array. -/
theorem emb0_0 (t : Fin cfg0.N) (p : Fin 2000) (k : Fin 128) (P : Fin 50000) (hP : P.val = t.val * 2000 + p.val) :
    ((cfg0.win 0).blk t).view.emb (ix2 p k) = ix2 P k := by
  have e := idx_facts0 t
  funext a; apply Fin.ext
  match a with
  | ⟨0, _⟩ => show win0_0.index t (0 : Fin 2) * 2000 + 1 * p.val = P.val; omega
  | ⟨1, _⟩ => show win0_0.index t (1 : Fin 2) * 128 + 1 * k.val = k.val; omega

/-- An element (p, k) of point t's block of window 2 sits at row 2000·t + p, column k of the array. -/
theorem emb0_2 (t : Fin cfg0.N) (p : Fin 2000) (k : Fin 128) (P : Fin 50000) (hP : P.val = t.val * 2000 + p.val) :
    ((cfg0.win 2).blk t).view.emb (ix2 p k) = ix2 P k := by
  have e := idx_facts0 t
  funext a; apply Fin.ext
  match a with
  | ⟨0, _⟩ => show win0_2.index t (0 : Fin 2) * 2000 + 1 * p.val = P.val; omega
  | ⟨1, _⟩ => show win0_2.index t (1 : Fin 2) * 128 + 1 * k.val = k.val; omega

/-- An element (p, k) of point t's block of window 3 sits at row 2000·t + p, column k of the array. -/
theorem emb0_3 (t : Fin cfg0.N) (p : Fin 2000) (k : Fin 128) (P : Fin 50000) (hP : P.val = t.val * 2000 + p.val) :
    ((cfg0.win 3).blk t).view.emb (ix2 p k) = ix2 P k := by
  have e := idx_facts0 t
  funext a; apply Fin.ext
  match a with
  | ⟨0, _⟩ => show win0_3.index t (0 : Fin 2) * 2000 + 1 * p.val = P.val; omega
  | ⟨1, _⟩ => show win0_3.index t (1 : Fin 2) * 128 + 1 * k.val = k.val; omega

/-- An element (p, k) of point t's block of window 4 sits at row 2000·t + p, column k of the array. -/
theorem emb0_4 (t : Fin cfg0.N) (p : Fin 2000) (k : Fin 128) (P : Fin 50000) (hP : P.val = t.val * 2000 + p.val) :
    ((cfg0.win 4).blk t).view.emb (ix2 p k) = ix2 P k := by
  have e := idx_facts0 t
  funext a; apply Fin.ext
  match a with
  | ⟨0, _⟩ => show win0_4.index t (0 : Fin 2) * 2000 + 1 * p.val = P.val; omega
  | ⟨1, _⟩ => show win0_4.index t (1 : Fin 2) * 128 + 1 * k.val = k.val; omega

/-- An element (p, k) of point t's block of window 5 sits at row 2000·t + p, column k of the array. -/
theorem emb0_5 (t : Fin cfg0.N) (p : Fin 2000) (k : Fin 128) (P : Fin 50000) (hP : P.val = t.val * 2000 + p.val) :
    ((cfg0.win 5).blk t).view.emb (ix2 p k) = ix2 P k := by
  have e := idx_facts0 t
  funext a; apply Fin.ext
  match a with
  | ⟨0, _⟩ => show win0_5.index t (0 : Fin 2) * 2000 + 1 * p.val = P.val; omega
  | ⟨1, _⟩ => show win0_5.index t (1 : Fin 2) * 128 + 1 * k.val = k.val; omega

/-- What point t writes back to output window 2 is block t of the whole-array function: the stored slice at (p, q)
    is the block's row p against row q of the weights, and the block's row p is row 2000·t + p of the features. -/
theorem flushed0_2_eq (c : Dev nD) (t : Fin cfg0.N) :
    (dat0 V c).flushed 2 t = ((cfg0.win 2).blk t).view.read (Elt Ideal)
      (projArr (V c main_arg0) (V c main_v0) 0) := by
  show (cfg0.win 2).cut (grid0.coords t) ((dat0 V c).after 2 t) = _
  rw [after0_2]
  unfold out0_2
  rw [View.canon_unit_zero hz]
  simp only [View.ld_unit_zero (S := S2000x128) hz, View.ld_unit_zero (S := S512x128) hz]
  funext j
  obtain ⟨p, q, rfl⟩ : ∃ (p : Fin 2000) (q : Fin 128), j = ix2 p q := ⟨j 0, j 1, eq_ix2 (n0 := 2000) (n1 := 128) j⟩
  have ht : t.val < 25 := t.isLt
  have hP : t.val * 2000 + p.val < 50000 := by omega
  have hx : (cfg0.win 2).xinj (grid0.coords t) (ix2 p q) = ix2 p q := by
    funext a; match a with | ⟨0, _⟩ => rfl | ⟨1, _⟩ => rfl
  have hL : (cfg0.win 2).cut (grid0.coords t) (k0_pay2 (F := Ideal) (iblk0 V c 0 t) (iblk0 V c 1 t)) (ix2 p q)
      = k0_pay2 (F := Ideal) (iblk0 V c 0 t) (iblk0 V c 1 t) ((cfg0.win 2).xinj (grid0.coords t) (ix2 p q)) := rfl
  have hR : ((cfg0.win 2).blk t).view.read (Elt Ideal) (projArr (V c main_arg0) (V c main_v0) 0) (ix2 p q)
      = projArr (V c main_arg0) (V c main_v0) 0 (((cfg0.win 2).blk t).view.emb (ix2 p q)) := rfl
  refine hL.trans (Eq.trans ?_ hR.symm)
  rw [hx, emb0_2 t p q ⟨t.val * 2000 + p.val, hP⟩ rfl, projArr_apply]
  refine (pay2_apply _ _ p q).trans ?_
  refine Finset.sum_congr rfl fun k _ => ?_
  have h0 : (iblk0 V c 0 t : FVec Ideal S2000x128 .f32) (ix2 p k)
      = (V c main_arg0 : FVec Ideal S50000x128 .f32) (((cfg0.win 0).blk t).view.emb (ix2 p k)) := rfl
  have h1 : (iblk0 V c 1 t : FVec Ideal S512x128 .f32) (ix2 (⟨q.val, by omega⟩ : Fin 512) k)
      = (V c main_v0 : FVec Ideal S512x128 .f32) (((cfg0.win 1).blk t).view.emb (ix2 (⟨q.val, by omega⟩ : Fin 512) k)) := rfl
  refine (congrArg₂ (fun (a b : Ideal .f32) => a * b) h0 h1).trans ?_
  have hr : (⟨q.val, by omega⟩ : Fin 512) = ⟨128 * (0 : Fin 4).val + q.val, by omega⟩ :=
    Fin.ext (by show q.val = 128 * 0 + q.val; omega)
  rw [emb0_0 t p k ⟨t.val * 2000 + p.val, hP⟩ rfl, emb0_1, hr]

/-- An index of the array is in point t's block of window 2 iff each coordinate is in the block's range. -/
theorem mem_blk0_2 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v1_0).slice (win0_2.rect t)).set ↔ _
  rw [View.set_slice_whole, Rect.mem_set_unit]
  exact Iff.rfl

/-- Row r of the array is in the block of point r / 2000. -/
theorem cover0_2 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hlt : (i 0).val / 2000 < 25 := by omega
  refine ⟨⟨(i 0).val / 2000, hlt⟩, flush0_2 _, ?_⟩
  rw [mem_blk0_2]
  have e := idx_facts0 ⟨(i 0).val / 2000, hlt⟩
  have hv : (⟨(i 0).val / 2000, hlt⟩ : Fin cfg0.N).val = (i 0).val / 2000 := rfl
  intro a
  match a with
  | ⟨0, _⟩ =>
    show win0_2.index ⟨(i 0).val / 2000, hlt⟩ (0 : Fin 2) * 2000 ≤ (i 0).val
      ∧ (i 0).val < win0_2.index ⟨(i 0).val / 2000, hlt⟩ (0 : Fin 2) * 2000 + 2000
    omega
  | ⟨1, _⟩ =>
    show win0_2.index ⟨(i 0).val / 2000, hlt⟩ (1 : Fin 2) * 128 ≤ (i 1).val
      ∧ (i 1).val < win0_2.index ⟨(i 0).val / 2000, hlt⟩ (1 : Fin 2) * 128 + 128
    omega

/-- Output window 2's array after region 0: slice 0 of the projection of the two input arrays as the region finds them. -/
theorem final0_2 (c : Dev nD) : (Hand.dat0 V c).arrAt 2 cfg0.N = projArr (V c main_arg0) (V c main_v0) 0 :=
  (dat0 V c).arrAt_eq_of_cover 2 (projArr (V c main_arg0) (V c main_v0) 0) (fun t _ => flushed0_2_eq V c t) cover0_2

/-- What point t writes back to output window 3 is block t of the whole-array function: the stored slice at (p, q)
    is the block's row p against row 128 + q of the weights, and the block's row p is row 2000·t + p of the features. -/
theorem flushed0_3_eq (c : Dev nD) (t : Fin cfg0.N) :
    (dat0 V c).flushed 3 t = ((cfg0.win 3).blk t).view.read (Elt Ideal)
      (projArr (V c main_arg0) (V c main_v0) 1) := by
  show (cfg0.win 3).cut (grid0.coords t) ((dat0 V c).after 3 t) = _
  rw [after0_3]
  unfold out0_3
  rw [View.canon_unit_zero hz]
  simp only [View.ld_unit_zero (S := S2000x128) hz, View.ld_unit_zero (S := S512x128) hz]
  funext j
  obtain ⟨p, q, rfl⟩ : ∃ (p : Fin 2000) (q : Fin 128), j = ix2 p q := ⟨j 0, j 1, eq_ix2 (n0 := 2000) (n1 := 128) j⟩
  have ht : t.val < 25 := t.isLt
  have hP : t.val * 2000 + p.val < 50000 := by omega
  have hx : (cfg0.win 3).xinj (grid0.coords t) (ix2 p q) = ix2 p q := by
    funext a; match a with | ⟨0, _⟩ => rfl | ⟨1, _⟩ => rfl
  have hL : (cfg0.win 3).cut (grid0.coords t) (k0_pay3 (F := Ideal) (iblk0 V c 0 t) (iblk0 V c 1 t)) (ix2 p q)
      = k0_pay3 (F := Ideal) (iblk0 V c 0 t) (iblk0 V c 1 t) ((cfg0.win 3).xinj (grid0.coords t) (ix2 p q)) := rfl
  have hR : ((cfg0.win 3).blk t).view.read (Elt Ideal) (projArr (V c main_arg0) (V c main_v0) 1) (ix2 p q)
      = projArr (V c main_arg0) (V c main_v0) 1 (((cfg0.win 3).blk t).view.emb (ix2 p q)) := rfl
  refine hL.trans (Eq.trans ?_ hR.symm)
  rw [hx, emb0_3 t p q ⟨t.val * 2000 + p.val, hP⟩ rfl, projArr_apply]
  refine (pay3_apply _ _ p q).trans ?_
  refine Finset.sum_congr rfl fun k _ => ?_
  have h0 : (iblk0 V c 0 t : FVec Ideal S2000x128 .f32) (ix2 p k)
      = (V c main_arg0 : FVec Ideal S50000x128 .f32) (((cfg0.win 0).blk t).view.emb (ix2 p k)) := rfl
  have h1 : (iblk0 V c 1 t : FVec Ideal S512x128 .f32) (ix2 (⟨128 + q.val, by omega⟩ : Fin 512) k)
      = (V c main_v0 : FVec Ideal S512x128 .f32) (((cfg0.win 1).blk t).view.emb (ix2 (⟨128 + q.val, by omega⟩ : Fin 512) k)) := rfl
  refine (congrArg₂ (fun (a b : Ideal .f32) => a * b) h0 h1).trans ?_
  have hr : (⟨128 + q.val, by omega⟩ : Fin 512) = ⟨128 * (1 : Fin 4).val + q.val, by omega⟩ :=
    Fin.ext (by show 128 + q.val = 128 * 1 + q.val; omega)
  rw [emb0_0 t p k ⟨t.val * 2000 + p.val, hP⟩ rfl, emb0_1, hr]

/-- An index of the array is in point t's block of window 3 iff each coordinate is in the block's range. -/
theorem mem_blk0_3 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v1_1).slice (win0_3.rect t)).set ↔ _
  rw [View.set_slice_whole, Rect.mem_set_unit]
  exact Iff.rfl

/-- Row r of the array is in the block of point r / 2000. -/
theorem cover0_3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hlt : (i 0).val / 2000 < 25 := by omega
  refine ⟨⟨(i 0).val / 2000, hlt⟩, flush0_3 _, ?_⟩
  rw [mem_blk0_3]
  have e := idx_facts0 ⟨(i 0).val / 2000, hlt⟩
  have hv : (⟨(i 0).val / 2000, hlt⟩ : Fin cfg0.N).val = (i 0).val / 2000 := rfl
  intro a
  match a with
  | ⟨0, _⟩ =>
    show win0_3.index ⟨(i 0).val / 2000, hlt⟩ (0 : Fin 2) * 2000 ≤ (i 0).val
      ∧ (i 0).val < win0_3.index ⟨(i 0).val / 2000, hlt⟩ (0 : Fin 2) * 2000 + 2000
    omega
  | ⟨1, _⟩ =>
    show win0_3.index ⟨(i 0).val / 2000, hlt⟩ (1 : Fin 2) * 128 ≤ (i 1).val
      ∧ (i 1).val < win0_3.index ⟨(i 0).val / 2000, hlt⟩ (1 : Fin 2) * 128 + 128
    omega

/-- Output window 3's array after region 0: slice 1 of the projection of the two input arrays as the region finds them. -/
theorem final0_3 (c : Dev nD) : (Hand.dat0 V c).arrAt 3 cfg0.N = projArr (V c main_arg0) (V c main_v0) 1 :=
  (dat0 V c).arrAt_eq_of_cover 3 (projArr (V c main_arg0) (V c main_v0) 1) (fun t _ => flushed0_3_eq V c t) cover0_3

/-- What point t writes back to output window 4 is block t of the whole-array function: the stored slice at (p, q)
    is the block's row p against row 256 + q of the weights, and the block's row p is row 2000·t + p of the features. -/
theorem flushed0_4_eq (c : Dev nD) (t : Fin cfg0.N) :
    (dat0 V c).flushed 4 t = ((cfg0.win 4).blk t).view.read (Elt Ideal)
      (projArr (V c main_arg0) (V c main_v0) 2) := by
  show (cfg0.win 4).cut (grid0.coords t) ((dat0 V c).after 4 t) = _
  rw [after0_4]
  unfold out0_4
  rw [View.canon_unit_zero hz]
  simp only [View.ld_unit_zero (S := S2000x128) hz, View.ld_unit_zero (S := S512x128) hz]
  funext j
  obtain ⟨p, q, rfl⟩ : ∃ (p : Fin 2000) (q : Fin 128), j = ix2 p q := ⟨j 0, j 1, eq_ix2 (n0 := 2000) (n1 := 128) j⟩
  have ht : t.val < 25 := t.isLt
  have hP : t.val * 2000 + p.val < 50000 := by omega
  have hx : (cfg0.win 4).xinj (grid0.coords t) (ix2 p q) = ix2 p q := by
    funext a; match a with | ⟨0, _⟩ => rfl | ⟨1, _⟩ => rfl
  have hL : (cfg0.win 4).cut (grid0.coords t) (k0_pay4 (F := Ideal) (iblk0 V c 0 t) (iblk0 V c 1 t)) (ix2 p q)
      = k0_pay4 (F := Ideal) (iblk0 V c 0 t) (iblk0 V c 1 t) ((cfg0.win 4).xinj (grid0.coords t) (ix2 p q)) := rfl
  have hR : ((cfg0.win 4).blk t).view.read (Elt Ideal) (projArr (V c main_arg0) (V c main_v0) 2) (ix2 p q)
      = projArr (V c main_arg0) (V c main_v0) 2 (((cfg0.win 4).blk t).view.emb (ix2 p q)) := rfl
  refine hL.trans (Eq.trans ?_ hR.symm)
  rw [hx, emb0_4 t p q ⟨t.val * 2000 + p.val, hP⟩ rfl, projArr_apply]
  refine (pay4_apply _ _ p q).trans ?_
  refine Finset.sum_congr rfl fun k _ => ?_
  have h0 : (iblk0 V c 0 t : FVec Ideal S2000x128 .f32) (ix2 p k)
      = (V c main_arg0 : FVec Ideal S50000x128 .f32) (((cfg0.win 0).blk t).view.emb (ix2 p k)) := rfl
  have h1 : (iblk0 V c 1 t : FVec Ideal S512x128 .f32) (ix2 (⟨256 + q.val, by omega⟩ : Fin 512) k)
      = (V c main_v0 : FVec Ideal S512x128 .f32) (((cfg0.win 1).blk t).view.emb (ix2 (⟨256 + q.val, by omega⟩ : Fin 512) k)) := rfl
  refine (congrArg₂ (fun (a b : Ideal .f32) => a * b) h0 h1).trans ?_
  have hr : (⟨256 + q.val, by omega⟩ : Fin 512) = ⟨128 * (2 : Fin 4).val + q.val, by omega⟩ :=
    Fin.ext (by show 256 + q.val = 128 * 2 + q.val; omega)
  rw [emb0_0 t p k ⟨t.val * 2000 + p.val, hP⟩ rfl, emb0_1, hr]

/-- An index of the array is in point t's block of window 4 iff each coordinate is in the block's range. -/
theorem mem_blk0_4 (t : Fin cfg0.N) (i : S50000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v1_2).slice (win0_4.rect t)).set ↔ _
  rw [View.set_slice_whole, Rect.mem_set_unit]
  exact Iff.rfl

/-- Row r of the array is in the block of point r / 2000. -/
theorem cover0_4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hlt : (i 0).val / 2000 < 25 := by omega
  refine ⟨⟨(i 0).val / 2000, hlt⟩, flush0_4 _, ?_⟩
  rw [mem_blk0_4]
  have e := idx_facts0 ⟨(i 0).val / 2000, hlt⟩
  have hv : (⟨(i 0).val / 2000, hlt⟩ : Fin cfg0.N).val = (i 0).val / 2000 := rfl
  intro a
  match a with
  | ⟨0, _⟩ =>
    show win0_4.index ⟨(i 0).val / 2000, hlt⟩ (0 : Fin 2) * 2000 ≤ (i 0).val
      ∧ (i 0).val < win0_4.index ⟨(i 0).val / 2000, hlt⟩ (0 : Fin 2) * 2000 + 2000
    omega
  | ⟨1, _⟩ =>
    show win0_4.index ⟨(i 0).val / 2000, hlt⟩ (1 : Fin 2) * 128 ≤ (i 1).val
      ∧ (i 1).val < win0_4.index ⟨(i 0).val / 2000, hlt⟩ (1 : Fin 2) * 128 + 128
    omega

/-- Output window 4's array after region 0: slice 2 of the projection of the two input arrays as the region finds them. -/
theorem final0_4 (c : Dev nD) : (Hand.dat0 V c).arrAt 4 cfg0.N = projArr (V c main_arg0) (V c main_v0) 2 :=
  (dat0 V c).arrAt_eq_of_cover 4 (projArr (V c main_arg0) (V c main_v0) 2) (fun t _ => flushed0_4_eq V c t) cover0_4

/-- What point t writes back to output window 5 is block t of the whole-array function: the stored slice at (p, q)
    is the block's row p against row 384 + q of the weights, and the block's row p is row 2000·t + p of the features. -/
theorem flushed0_5_eq (c : Dev nD) (t : Fin cfg0.N) :
    (dat0 V c).flushed 5 t = ((cfg0.win 5).blk t).view.read (Elt Ideal)
      (projArr (V c main_arg0) (V c main_v0) 3) := by
  show (cfg0.win 5).cut (grid0.coords t) ((dat0 V c).after 5 t) = _
  rw [after0_5]
  unfold out0_5
  rw [View.canon_unit_zero hz]
  simp only [View.ld_unit_zero (S := S2000x128) hz, View.ld_unit_zero (S := S512x128) hz]
  funext j
  obtain ⟨p, q, rfl⟩ : ∃ (p : Fin 2000) (q : Fin 128), j = ix2 p q := ⟨j 0, j 1, eq_ix2 (n0 := 2000) (n1 := 128) j⟩
  have ht : t.val < 25 := t.isLt
  have hP : t.val * 2000 + p.val < 50000 := by omega
  have hx : (cfg0.win 5).xinj (grid0.coords t) (ix2 p q) = ix2 p q := by
    funext a; match a with | ⟨0, _⟩ => rfl | ⟨1, _⟩ => rfl
  have hL : (cfg0.win 5).cut (grid0.coords t) (k0_pay5 (F := Ideal) (iblk0 V c 0 t) (iblk0 V c 1 t)) (ix2 p q)
      = k0_pay5 (F := Ideal) (iblk0 V c 0 t) (iblk0 V c 1 t) ((cfg0.win 5).xinj (grid0.coords t) (ix2 p q)) := rfl
  have hR : ((cfg0.win 5).blk t).view.read (Elt Ideal) (projArr (V c main_arg0) (V c main_v0) 3) (ix2 p q)
      = projArr (V c main_arg0) (V c main_v0) 3 (((cfg0.win 5).blk t).view.emb (ix2 p q)) := rfl
  refine hL.trans (Eq.trans ?_ hR.symm)
  rw [hx, emb0_5 t p q ⟨t.val * 2000 + p.val, hP⟩ rfl, projArr_apply]
  refine (pay5_apply _ _ p q).trans ?_
  refine Finset.sum_congr rfl fun k _ => ?_
  have h0 : (iblk0 V c 0 t : FVec Ideal S2000x128 .f32) (ix2 p k)
      = (V c main_arg0 : FVec Ideal S50000x128 .f32) (((cfg0.win 0).blk t).view.emb (ix2 p k)) := rfl
  have h1 : (iblk0 V c 1 t : FVec Ideal S512x128 .f32) (ix2 (⟨384 + q.val, by omega⟩ : Fin 512) k)
      = (V c main_v0 : FVec Ideal S512x128 .f32) (((cfg0.win 1).blk t).view.emb (ix2 (⟨384 + q.val, by omega⟩ : Fin 512) k)) := rfl
  refine (congrArg₂ (fun (a b : Ideal .f32) => a * b) h0 h1).trans ?_
  have hr : (⟨384 + q.val, by omega⟩ : Fin 512) = ⟨128 * (3 : Fin 4).val + q.val, by omega⟩ :=
    Fin.ext (by show 384 + q.val = 128 * 3 + q.val; omega)
  rw [emb0_0 t p k ⟨t.val * 2000 + p.val, hP⟩ rfl, emb0_1, hr]

/-- An index of the array is in point t's block of window 5 iff each coordinate is in the block's range. -/
theorem mem_blk0_5 (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v1_3).slice (win0_5.rect t)).set ↔ _
  rw [View.set_slice_whole, Rect.mem_set_unit]
  exact Iff.rfl

/-- Row r of the array is in the block of point r / 2000. -/
theorem cover0_5 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hlt : (i 0).val / 2000 < 25 := by omega
  refine ⟨⟨(i 0).val / 2000, hlt⟩, flush0_5 _, ?_⟩
  rw [mem_blk0_5]
  have e := idx_facts0 ⟨(i 0).val / 2000, hlt⟩
  have hv : (⟨(i 0).val / 2000, hlt⟩ : Fin cfg0.N).val = (i 0).val / 2000 := rfl
  intro a
  match a with
  | ⟨0, _⟩ =>
    show win0_5.index ⟨(i 0).val / 2000, hlt⟩ (0 : Fin 2) * 2000 ≤ (i 0).val
      ∧ (i 0).val < win0_5.index ⟨(i 0).val / 2000, hlt⟩ (0 : Fin 2) * 2000 + 2000
    omega
  | ⟨1, _⟩ =>
    show win0_5.index ⟨(i 0).val / 2000, hlt⟩ (1 : Fin 2) * 128 ≤ (i 1).val
      ∧ (i 1).val < win0_5.index ⟨(i 0).val / 2000, hlt⟩ (1 : Fin 2) * 128 + 128
    omega

/-- Output window 5's array after region 0: slice 3 of the projection of the two input arrays as the region finds them. -/
theorem final0_5 (c : Dev nD) : (Hand.dat0 V c).arrAt 5 cfg0.N = projArr (V c main_arg0) (V c main_v0) 3 :=
  (dat0 V c).arrAt_eq_of_cover 5 (projArr (V c main_arg0) (V c main_v0) 3) (fun t _ => flushed0_5_eq V c t) cover0_5

/-! ## Region 1: the combination -/

/-- The printed index maps of region 1, decided over the grid: every window of 2000-row blocks is at block (t, 0) at
    point t, and the bias row's window is its one block at every point. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The rectified left-to-right sum of four arrays and the broadcast bias row, as one array. -/
def combArr (a b c d : FVec Ideal S50000x128 .f32) (bias : FVec Ideal S1x128 .f32) : FVec Ideal S50000x128 .f32 :=
  fun i => max ((((a i + b i) + c i) + d i) + bias (ix2 (0 : Fin 1) (⟨(i 1).val, idx2_lt1 i⟩ : Fin 128))) 0

theorem combArr_apply (a b c d : FVec Ideal S50000x128 .f32) (bias : FVec Ideal S1x128 .f32) (p : Fin 50000) (q : Fin 128) :
    combArr a b c d bias (ix2 p q)
      = max ((((a (ix2 p q) + b (ix2 p q)) + c (ix2 p q)) + d (ix2 p q)) + bias (ix2 (0 : Fin 1) q)) 0 := rfl

/-- The bias row's window is the whole array: an element of its block sits at the same index of the array. -/
theorem emb1_4 (t : Fin cfg1.N) (k : Fin 128) :
    ((cfg1.win 4).blk t).view.emb (ix2 (0 : Fin 1) k) = ix2 (0 : Fin 1) k := by
  have e := idx_facts1 t
  funext a; apply Fin.ext
  match a with
  | ⟨0, _⟩ => show win1_4.index t (0 : Fin 2) * 1 + 1 * 0 = 0; omega
  | ⟨1, _⟩ => show win1_4.index t (1 : Fin 2) * 128 + 1 * k.val = k.val; omega

/-- An element (p, k) of point t's block of window 0 sits at row 2000·t + p, column k of the array. -/
theorem emb1_0 (t : Fin cfg1.N) (p : Fin 2000) (k : Fin 128) (P : Fin 50000) (hP : P.val = t.val * 2000 + p.val) :
    ((cfg1.win 0).blk t).view.emb (ix2 p k) = ix2 P k := by
  have e := idx_facts1 t
  funext a; apply Fin.ext
  match a with
  | ⟨0, _⟩ => show win1_0.index t (0 : Fin 2) * 2000 + 1 * p.val = P.val; omega
  | ⟨1, _⟩ => show win1_0.index t (1 : Fin 2) * 128 + 1 * k.val = k.val; omega

/-- An element (p, k) of point t's block of window 1 sits at row 2000·t + p, column k of the array. -/
theorem emb1_1 (t : Fin cfg1.N) (p : Fin 2000) (k : Fin 128) (P : Fin 50000) (hP : P.val = t.val * 2000 + p.val) :
    ((cfg1.win 1).blk t).view.emb (ix2 p k) = ix2 P k := by
  have e := idx_facts1 t
  funext a; apply Fin.ext
  match a with
  | ⟨0, _⟩ => show win1_1.index t (0 : Fin 2) * 2000 + 1 * p.val = P.val; omega
  | ⟨1, _⟩ => show win1_1.index t (1 : Fin 2) * 128 + 1 * k.val = k.val; omega

/-- An element (p, k) of point t's block of window 2 sits at row 2000·t + p, column k of the array. -/
theorem emb1_2 (t : Fin cfg1.N) (p : Fin 2000) (k : Fin 128) (P : Fin 50000) (hP : P.val = t.val * 2000 + p.val) :
    ((cfg1.win 2).blk t).view.emb (ix2 p k) = ix2 P k := by
  have e := idx_facts1 t
  funext a; apply Fin.ext
  match a with
  | ⟨0, _⟩ => show win1_2.index t (0 : Fin 2) * 2000 + 1 * p.val = P.val; omega
  | ⟨1, _⟩ => show win1_2.index t (1 : Fin 2) * 128 + 1 * k.val = k.val; omega

/-- An element (p, k) of point t's block of window 3 sits at row 2000·t + p, column k of the array. -/
theorem emb1_3 (t : Fin cfg1.N) (p : Fin 2000) (k : Fin 128) (P : Fin 50000) (hP : P.val = t.val * 2000 + p.val) :
    ((cfg1.win 3).blk t).view.emb (ix2 p k) = ix2 P k := by
  have e := idx_facts1 t
  funext a; apply Fin.ext
  match a with
  | ⟨0, _⟩ => show win1_3.index t (0 : Fin 2) * 2000 + 1 * p.val = P.val; omega
  | ⟨1, _⟩ => show win1_3.index t (1 : Fin 2) * 128 + 1 * k.val = k.val; omega

/-- An element (p, k) of point t's block of window 5 sits at row 2000·t + p, column k of the array. -/
theorem emb1_5 (t : Fin cfg1.N) (p : Fin 2000) (k : Fin 128) (P : Fin 50000) (hP : P.val = t.val * 2000 + p.val) :
    ((cfg1.win 5).blk t).view.emb (ix2 p k) = ix2 P k := by
  have e := idx_facts1 t
  funext a; apply Fin.ext
  match a with
  | ⟨0, _⟩ => show win1_5.index t (0 : Fin 2) * 2000 + 1 * p.val = P.val; omega
  | ⟨1, _⟩ => show win1_5.index t (1 : Fin 2) * 128 + 1 * k.val = k.val; omega

/-- What point t writes back to the output window is block t of the whole-array function: the stored block at (p, q)
    combines the four input blocks at (p, q) and the bias row at column q, and each block's row p is row 2000·t + p of
    its array. -/
theorem flushed1_5_eq (c : Dev nD) (t : Fin cfg1.N) :
    (dat1 V c).flushed 5 t = ((cfg1.win 5).blk t).view.read (Elt Ideal)
      (combArr (V c main_v20) (V c main_v39) (V c main_v58) (V c main_v1_3) (V c main_v59)) := by
  show (cfg1.win 5).cut (grid1.coords t) ((dat1 V c).after 5 t) = _
  rw [after1_5]
  unfold out1_5
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 (n0 := 2000) (n1 := 128) j⟩
  have ht : t.val < 25 := t.isLt
  have hP : t.val * 2000 + p.val < 50000 := by omega
  have hx : (cfg1.win 5).xinj (grid1.coords t) (ix2 p q) = ix2 p q := by
    funext a; match a with | ⟨0, _⟩ => rfl | ⟨1, _⟩ => rfl
  have hL : (cfg1.win 5).cut (grid1.coords t) (k1_pay1 (F := Ideal) (iblk1 V c 0 t) (iblk1 V c 1 t) (iblk1 V c 2 t) (iblk1 V c 3 t) (iblk1 V c 4 t)) (ix2 p q)
      = k1_pay1 (F := Ideal) (iblk1 V c 0 t) (iblk1 V c 1 t) (iblk1 V c 2 t) (iblk1 V c 3 t) (iblk1 V c 4 t) ((cfg1.win 5).xinj (grid1.coords t) (ix2 p q)) := rfl
  have hR : ((cfg1.win 5).blk t).view.read (Elt Ideal) (combArr (V c main_v20) (V c main_v39) (V c main_v58) (V c main_v1_3) (V c main_v59)) (ix2 p q)
      = combArr (V c main_v20) (V c main_v39) (V c main_v58) (V c main_v1_3) (V c main_v59) (((cfg1.win 5).blk t).view.emb (ix2 p q)) := rfl
  refine hL.trans (Eq.trans ?_ hR.symm)
  rw [hx, emb1_5 t p q ⟨t.val * 2000 + p.val, hP⟩ rfl, combArr_apply]
  refine (combine_apply _ _ _ _ _ p q).trans ?_
  have h0 : (iblk1 V c 0 t : FVec Ideal S2000x128 .f32) (ix2 p q)
      = (V c main_v20 : FVec Ideal S50000x128 .f32) (((cfg1.win 0).blk t).view.emb (ix2 p q)) := rfl
  have h1 : (iblk1 V c 1 t : FVec Ideal S2000x128 .f32) (ix2 p q)
      = (V c main_v39 : FVec Ideal S50000x128 .f32) (((cfg1.win 1).blk t).view.emb (ix2 p q)) := rfl
  have h2 : (iblk1 V c 2 t : FVec Ideal S2000x128 .f32) (ix2 p q)
      = (V c main_v58 : FVec Ideal S50000x128 .f32) (((cfg1.win 2).blk t).view.emb (ix2 p q)) := rfl
  have h3 : (iblk1 V c 3 t : FVec Ideal S2000x128 .f32) (ix2 p q)
      = (V c main_v1_3 : FVec Ideal S50000x128 .f32) (((cfg1.win 3).blk t).view.emb (ix2 p q)) := rfl
  have h4 : (iblk1 V c 4 t : FVec Ideal S1x128 .f32) (ix2 (0 : Fin 1) q)
      = (V c main_v59 : FVec Ideal S1x128 .f32) (((cfg1.win 4).blk t).view.emb (ix2 (0 : Fin 1) q)) := rfl
  rw [emb1_0 t p q ⟨t.val * 2000 + p.val, hP⟩ rfl] at h0
  rw [emb1_1 t p q ⟨t.val * 2000 + p.val, hP⟩ rfl] at h1
  rw [emb1_2 t p q ⟨t.val * 2000 + p.val, hP⟩ rfl] at h2
  rw [emb1_3 t p q ⟨t.val * 2000 + p.val, hP⟩ rfl] at h3
  rw [emb1_4 t q] at h4
  exact congrArg₂ (fun (u v : Ideal .f32) => max u v)
    (congrArg₂ (fun (u v : Ideal .f32) => u + v)
      (congrArg₂ (fun (u v : Ideal .f32) => u + v)
        (congrArg₂ (fun (u v : Ideal .f32) => u + v)
          (congrArg₂ (fun (u v : Ideal .f32) => u + v) h0 h1) h2) h3) h4) rfl

/-- An index of the array is in point t's block of the output window iff each coordinate is in the block's range. -/
theorem mem_blk1_5 (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v60).slice (win1_5.rect t)).set ↔ _
  rw [View.set_slice_whole, Rect.mem_set_unit]
  exact Iff.rfl

/-- Row r of the array is in the block of point r / 2000. -/
theorem cover1_5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hlt : (i 0).val / 2000 < 25 := by omega
  refine ⟨⟨(i 0).val / 2000, hlt⟩, flush1_5 _, ?_⟩
  rw [mem_blk1_5]
  have e := idx_facts1 ⟨(i 0).val / 2000, hlt⟩
  have hv : (⟨(i 0).val / 2000, hlt⟩ : Fin cfg1.N).val = (i 0).val / 2000 := rfl
  intro a
  match a with
  | ⟨0, _⟩ =>
    show win1_5.index ⟨(i 0).val / 2000, hlt⟩ (0 : Fin 2) * 2000 ≤ (i 0).val
      ∧ (i 0).val < win1_5.index ⟨(i 0).val / 2000, hlt⟩ (0 : Fin 2) * 2000 + 2000
    omega
  | ⟨1, _⟩ =>
    show win1_5.index ⟨(i 0).val / 2000, hlt⟩ (1 : Fin 2) * 128 ≤ (i 1).val
      ∧ (i 1).val < win1_5.index ⟨(i 0).val / 2000, hlt⟩ (1 : Fin 2) * 128 + 128
    omega

/-- The output array after region 1: the combination of the five input arrays as the region finds them. -/
theorem final1_5 (c : Dev nD) : (Hand.dat1 V c).arrAt 5 cfg1.N
    = combArr (V c main_v20) (V c main_v39) (V c main_v58) (V c main_v1_3) (V c main_v59) :=
  (dat1 V c).arrAt_eq_of_cover 5 (combArr (V c main_v20) (V c main_v39) (V c main_v58) (V c main_v1_3) (V c main_v59))
    (fun t _ => flushed1_5_eq V c t) cover1_5

end Cert.KernelIdeal.KValue

end
-- ==== Proof.HostChain.lean ====
/-
  The host operations of the kernel program between its two regions, read as functions. Each of the three relations
  goes through the same chain: negative source indices are shifted by the number of nodes, the projected features
  are gathered at the sources, scatter-added at the destinations into zeros, and divided by the in-degree (the
  scatter-add of ones) clamped below at one and broadcast along the features. That chain is named here as ONE
  function of the projected features and the two index arrays and is never opened. The bias row is the bias vector
  reshaped; the self projection and the node features pass through untouched; the concatenated weights are the four
  weight matrices stacked along the rows.
-/
import proofs.«128560_j83330955477834_1_alg».proof.Proof.Gen.KernelIdeal.Launch
import Idealize.ShloMosaic.Lib.StableHlo.Run
import Idealize.ShloMosaic.PureOps.Ideal

noncomputable section

namespace Cert.KernelIdeal.Chain

open Cert.KernelIdeal Cert.KernelIdeal.Gen
open Idealize.ShloMosaic Idealize.ShloMosaic.TcCoe Idealize.SL.Sem Idealize.ShloMosaic.StableHlo

/-- One relation's mean aggregation of the projected features h along the edges (src, dst), exactly as the host
    operations compose it. -/
def aggK (h : FVec Ideal S50000x128 .f32) (src dst : (⟨S800000, .i32⟩ : BufTy).Contents (Elt Ideal)) : FVec Ideal S50000x128 .f32 :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
                  (addi src (broadcastInDim S800000 ![] bcast_S_S800000 (constantI S_ 32 50000#32))) src))))
    (broadcastInDim S50000x128 ![0, 1] bcast_S50000x1_S50000x128_0_1
      (broadcastInDim S50000x1 ![0] bcast_S50000_S50000x1_0
        (maximumf
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S50000 ![] bcast_S_S50000 (constant (F := Ideal) S_ .f32 0x3F800000#32)))))

variable (W : Valuation τ sig (Elt Ideal))

set_option maxRecDepth 8192 in
set_option maxHeartbeats 4000000 in
/-- After the host stretch, relation 0's buffer holds the aggregation of region 0's first output along (arg6, arg7). -/
theorem after1_v20 : StableHlo.after (hostOps1 (F := Ideal)) W (Proc.devRef .tc main_v20)
    = aggK (W (Proc.devRef .tc main_v1_0)) (W (Proc.devRef .tc main_arg6)) (W (Proc.devRef .tc main_arg7)) := by
  after_results_simp <;> rfl

set_option maxRecDepth 8192 in
set_option maxHeartbeats 4000000 in
theorem after1_v39 : StableHlo.after (hostOps1 (F := Ideal)) W (Proc.devRef .tc main_v39)
    = aggK (W (Proc.devRef .tc main_v1_1)) (W (Proc.devRef .tc main_arg8)) (W (Proc.devRef .tc main_arg9)) := by
  after_results_simp <;> rfl

set_option maxRecDepth 8192 in
set_option maxHeartbeats 4000000 in
theorem after1_v58 : StableHlo.after (hostOps1 (F := Ideal)) W (Proc.devRef .tc main_v58)
    = aggK (W (Proc.devRef .tc main_v1_2)) (W (Proc.devRef .tc main_arg10)) (W (Proc.devRef .tc main_arg11)) := by
  after_results_simp <;> rfl

set_option maxRecDepth 8192 in
set_option maxHeartbeats 4000000 in
/-- The self projection is not written by the host stretch. -/
theorem after1_v1_3 : StableHlo.after (hostOps1 (F := Ideal)) W (Proc.devRef .tc main_v1_3) = W (Proc.devRef .tc main_v1_3) := by
  after_results_simp <;> rfl

set_option maxRecDepth 8192 in
set_option maxHeartbeats 4000000 in
/-- The bias row is the bias vector reshaped to one row. -/
theorem after1_v59 : StableHlo.after (hostOps1 (F := Ideal)) W (Proc.devRef .tc main_v59)
    = shapeCast S1x128 (W (Proc.devRef .tc main_arg5)) shapeCasts_S128_S1x128 := by
  after_results_simp <;> rfl

/-- The concatenated weights are the four weight matrices stacked along axis 0. -/
theorem after0_v0 : StableHlo.after (hostOps0 (F := Ideal)) W (Proc.devRef .tc main_v0)
    = concatenate S512x128 0 [⟨S128x128, W (Proc.devRef .tc main_arg1)⟩, ⟨S128x128, W (Proc.devRef .tc main_arg2)⟩, ⟨S128x128, W (Proc.devRef .tc main_arg3)⟩, ⟨S128x128, W (Proc.devRef .tc main_arg4)⟩] concatenates_S128x128_S128x128_S128x128_S128x128_S512x128_d0 := by
  after_results <;> rfl

/-- The node features are not written by the first host operation. -/
theorem after0_arg0 : StableHlo.after (hostOps0 (F := Ideal)) W (Proc.devRef .tc main_arg0) = W (Proc.devRef .tc main_arg0) := by
  after_results <;> rfl

/-- No argument is written by the first host operation. -/
theorem after0_arg1 : StableHlo.after (hostOps0 (F := Ideal)) W (Proc.devRef .tc main_arg1) = W (Proc.devRef .tc main_arg1) := by
  after_results <;> rfl
theorem after0_arg2 : StableHlo.after (hostOps0 (F := Ideal)) W (Proc.devRef .tc main_arg2) = W (Proc.devRef .tc main_arg2) := by
  after_results <;> rfl
theorem after0_arg3 : StableHlo.after (hostOps0 (F := Ideal)) W (Proc.devRef .tc main_arg3) = W (Proc.devRef .tc main_arg3) := by
  after_results <;> rfl
theorem after0_arg4 : StableHlo.after (hostOps0 (F := Ideal)) W (Proc.devRef .tc main_arg4) = W (Proc.devRef .tc main_arg4) := by
  after_results <;> rfl
theorem after0_arg5 : StableHlo.after (hostOps0 (F := Ideal)) W (Proc.devRef .tc main_arg5) = W (Proc.devRef .tc main_arg5) := by
  after_results <;> rfl
theorem after0_arg6 : StableHlo.after (hostOps0 (F := Ideal)) W (Proc.devRef .tc main_arg6) = W (Proc.devRef .tc main_arg6) := by
  after_results <;> rfl
theorem after0_arg7 : StableHlo.after (hostOps0 (F := Ideal)) W (Proc.devRef .tc main_arg7) = W (Proc.devRef .tc main_arg7) := by
  after_results <;> rfl
theorem after0_arg8 : StableHlo.after (hostOps0 (F := Ideal)) W (Proc.devRef .tc main_arg8) = W (Proc.devRef .tc main_arg8) := by
  after_results <;> rfl
theorem after0_arg9 : StableHlo.after (hostOps0 (F := Ideal)) W (Proc.devRef .tc main_arg9) = W (Proc.devRef .tc main_arg9) := by
  after_results <;> rfl
theorem after0_arg10 : StableHlo.after (hostOps0 (F := Ideal)) W (Proc.devRef .tc main_arg10) = W (Proc.devRef .tc main_arg10) := by
  after_results <;> rfl
theorem after0_arg11 : StableHlo.after (hostOps0 (F := Ideal)) W (Proc.devRef .tc main_arg11) = W (Proc.devRef .tc main_arg11) := by
  after_results <;> rfl

end Cert.KernelIdeal.Chain

end
-- ==== Proof.RefValue.lean ====
/- The reference program's result read at an index.
   `dotR` is one projection of the node features (the host's dot_general against the transposed weight), read at an
   index as a sum over the contracted axis; `aggR` is one relation's mean aggregation, the printed host operations
   composed in order and never opened; `res_apply` reads the program's result at an index: the maximum with zero of the
   three aggregations, the self projection and the bias, summed in the printed order. -/
import proofs.«128560_j83330955477834_1_alg».proof.Proof.Gen.ReferenceIdeal.Run
import proofs.«128560_j83330955477834_1_alg».proof.Proof.Gen.ReferenceIdeal.Read
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-- One projection of the node features: the host's dot_general of `x` with the transposed weight. -/
def dotR (x : FVec Ideal S50000x128 .f32) (W : FVec Ideal S128x128 .f32) : FVec Ideal S50000x128 .f32 :=
  Host.dotGeneral (F := Ideal) dot_S50000x128_S128x128_S50000x128_1_0_0_1_n_n none x (transpose S128x128 [1, 0] W transposes_S128x128_S128x128_1_0)

/-- The projection at an index: row `p` of the features against row `q` of the weight (the weight is read transposed). -/
theorem dotR_apply (x : FVec Ideal S50000x128 .f32) (W : FVec Ideal S128x128 .f32) (p : Fin 50000) (q : Fin 128) :
    dotR x W (ix2 p q) = ∑ k : Fin 128, x (ix2 p k) * W (ix2 q k) := by
  refine (Read.val_main_v1_apply x W (ix2 p q)).trans ?_
  refine Finset.sum_congr rfl fun k _ => ?_
  refine (congrArg (fun t => x (Read.lidx_main_v1 (ix2 p q) k) * t) (Read.val_main_v0_apply (F := Ideal) W (Read.ridx_main_v1 (ix2 p q) k))).trans ?_
  have e1 : Read.lidx_main_v1 (ix2 p q) k = ix2 p k := by
    funext a; match a with | ⟨0, _⟩ => rfl | ⟨1, _⟩ => rfl
  have e2 : Read.idx_main_v0 (Read.ridx_main_v1 (ix2 p q) k) = ix2 q k := by
    funext a; match a with | ⟨0, _⟩ => rfl | ⟨1, _⟩ => rfl
  show x (Read.lidx_main_v1 (ix2 p q) k) * W (Read.idx_main_v0 (Read.ridx_main_v1 (ix2 p q) k)) = _
  rw [e1, e2]

/-- The per-relation aggregation exactly as the program prints it, as one function of the projected features `h` and
    the two edge-index arrays: the rows of `h` gathered at the (wrapped) source indices are summed into their
    destination rows, and each row is divided by its in-degree, at least one. It is never opened. -/
def aggR (h : FVec Ideal S50000x128 .f32) (src dst : (⟨S800000, .i32⟩ : BufTy).Contents (Elt Ideal)) : FVec Ideal S50000x128 .f32 :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
                  (addi src (broadcastInDim S800000 ![] bcast_S_S800000 (constantI S_ 32 50000#32))) src))))
    (broadcastInDim S50000x128 ![0, 1] bcast_S50000x1_S50000x128_0_1
      (broadcastInDim S50000x1 ![0] bcast_S50000_S50000x1_0
        (maximumf
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S50000 ![] bcast_S_S50000 (constant (F := Ideal) S_ .f32 0x3F800000#32)))))

/-- Each relation's stage of the reference is the aggregation of that relation's projection: the stages are the
    printed operations composed in order, which is how `aggR` and `dotR` are written. -/
theorem v20_eq (x0 : FVec Ideal S50000x128 .f32) (x1 : FVec Ideal S128x128 .f32) (x6 x7 : (⟨S800000, .i32⟩ : BufTy).Contents (Elt Ideal)) :
    Read.val_main_v20 (F := Ideal) x0 x1 x6 x7 = aggR (dotR x0 x1) x6 x7 := rfl
theorem v41_eq (x0 : FVec Ideal S50000x128 .f32) (x2 : FVec Ideal S128x128 .f32) (x8 x9 : (⟨S800000, .i32⟩ : BufTy).Contents (Elt Ideal)) :
    Read.val_main_v41 (F := Ideal) x0 x2 x8 x9 = aggR (dotR x0 x2) x8 x9 := rfl
theorem v63_eq (x0 : FVec Ideal S50000x128 .f32) (x3 : FVec Ideal S128x128 .f32) (x10 x11 : (⟨S800000, .i32⟩ : BufTy).Contents (Elt Ideal)) :
    Read.val_main_v63 (F := Ideal) x0 x3 x10 x11 = aggR (dotR x0 x3) x10 x11 := rfl
theorem v66_eq (x0 : FVec Ideal S50000x128 .f32) (x4 : FVec Ideal S128x128 .f32) :
    Read.val_main_v66 (F := Ideal) x0 x4 = dotR x0 x4 := rfl

/-- The last stage at an index, over arbitrary arguments: the relu's maximum, the four sums and the bias broadcast read
    at the index; every summand is an aggregation or a projection, left closed. -/
theorem val71_apply (x0 : FVec Ideal S50000x128 .f32) (x1 x2 x3 x4 : FVec Ideal S128x128 .f32) (x5 : FVec Ideal S128 .f32)
    (x6 x7 x8 x9 x10 x11 : (⟨S800000, .i32⟩ : BufTy).Contents (Elt Ideal)) (p : Fin 50000) (q : Fin 128) :
    Read.val_main_v71 (F := Ideal) x0 x1 x2 x3 x4 x5 x6 x7 x8 x9 x10 x11 (ix2 p q)
      = max ((((aggR (dotR x0 x1) x6 x7 (ix2 p q) + aggR (dotR x0 x2) x8 x9 (ix2 p q)) + aggR (dotR x0 x3) x10 x11 (ix2 p q))
          + dotR x0 x4 (ix2 p q)) + x5 (ix1 q)) 0 := by
  rw [Read.val_main_v71_apply, Read.val_main_v70_apply, Read.val_main_v67_apply, Read.val_main_v64_apply,
    Read.val_main_v42_apply, Read.val_main_call0_v0_apply, Read.val_main_call0_cst_apply, Read.val_main_v69_apply,
    Read.val_main_v68_apply, v20_eq, v41_eq, v63_eq, v66_eq]
  have e : Read.idx_main_v68 (Read.idx_main_v69 (ix2 p q)) = ix1 q := by
    funext a; match a with | ⟨0, _⟩ => rfl
  rw [e]
  show max ((((aggR (dotR x0 x1) x6 x7 (ix2 p q) + aggR (dotR x0 x2) x8 x9 (ix2 p q)) + aggR (dotR x0 x3) x10 x11 (ix2 p q))
          + dotR x0 x4 (ix2 p q)) + x5 (ix1 q)) (Ideal.ofBits .f32 0x00000000#32) = _
  rw [Ideal.ofBits_zero_f32]

/-- The reference's result at an index. -/
theorem res_apply (m : (ℓ : Loc nD τ sig) → Buf (Elt Ideal) ℓ) (c : Dev nD) (p : Fin 50000) (q : Fin 128) :
    Cert.ReferenceIdeal.Value.res_main_v71 (F := Ideal) m c (ix2 p q)
      = max ((((aggR (dotR (m ((c.tc : Thread nD τ).loc main_arg0)) (m ((c.tc : Thread nD τ).loc main_arg1)))
                  (m ((c.tc : Thread nD τ).loc main_arg6)) (m ((c.tc : Thread nD τ).loc main_arg7)) (ix2 p q)
              + aggR (dotR (m ((c.tc : Thread nD τ).loc main_arg0)) (m ((c.tc : Thread nD τ).loc main_arg2)))
                  (m ((c.tc : Thread nD τ).loc main_arg8)) (m ((c.tc : Thread nD τ).loc main_arg9)) (ix2 p q))
              + aggR (dotR (m ((c.tc : Thread nD τ).loc main_arg0)) (m ((c.tc : Thread nD τ).loc main_arg3)))
                  (m ((c.tc : Thread nD τ).loc main_arg10)) (m ((c.tc : Thread nD τ).loc main_arg11)) (ix2 p q))
              + dotR (m ((c.tc : Thread nD τ).loc main_arg0)) (m ((c.tc : Thread nD τ).loc main_arg4)) (ix2 p q))
              + m ((c.tc : Thread nD τ).loc main_arg5) (ix1 q)) 0 :=
  (congrFun (Read.val_main_v71_eq (F := Ideal) m c) (ix2 p q)).trans
    (val71_apply (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11)) p q)

end Cert.ReferenceIdeal.RefValue

end
-- ==== Proof.Bridge.lean ====
/-
  The kernel program's result is the reference's function of the arguments. Region 0 leaves, in its four outputs,
  the node features projected by each of the four weight matrices (row p against row q of the matrix: the stacked
  weights' row 128·s + q is row q of matrix s). The host stretch applies to the first three the same per-relation
  chain the reference applies, so those buffers hold the reference's normalised aggregates; the fourth passes
  through. Region 1 adds the four and the bias row, left to right, and rectifies: index by index this is the
  reference's last operations on equal summands.
-/
import proofs.«128560_j83330955477834_1_alg».proof.Proof.KI.Run
import proofs.«128560_j83330955477834_1_alg».proof.Proof.KValue
import proofs.«128560_j83330955477834_1_alg».proof.Proof.KPay
import proofs.«128560_j83330955477834_1_alg».proof.Proof.HostChain
import proofs.«128560_j83330955477834_1_alg».proof.Proof.RefValue
import Idealize.ShloMosaic.Lib.ValueLayout
import Idealize.ShloMosaic.Lib.ValueIdx

noncomputable section

namespace Cert.Bridge

open Idealize.ShloMosaic Idealize.ShloMosaic.TcCoe Idealize.SL.Sem Idealize.ShloMosaic.ValueIdx
open Cert.KernelIdeal Cert.KernelIdeal.Gen
open Cert.ReferenceIdeal.RefValue (dotR aggR dotR_apply res_apply)

variable (m : (ℓ : Loc nD τ sig) → Buf (Elt Ideal) ℓ) (ρ : Dev nD → PrngReg)

/-- The per-relation chain over this program's dimension records is the chain over the reference's: the records
    hold the same numbers. -/
theorem aggK_eq (h : FVec Ideal S50000x128 .f32) (src dst : (⟨S800000, .i32⟩ : BufTy).Contents (Elt Ideal)) :
    Chain.aggK h src dst = aggR h src dst := rfl

/-! ## What region 0 is entered with -/

theorem V1_x (c : Dev nD) : Hand.V1 m ρ c main_arg0 = m ((c : Thread nD τ).loc main_arg0) :=
  Chain.after0_arg0 (Hand.W0 (F := Ideal) m ρ c)

theorem V1_wcat (c : Dev nD) : Hand.V1 m ρ c main_v0 = concatenate S512x128 0 [⟨S128x128, m ((c : Thread nD τ).loc main_arg1)⟩, ⟨S128x128, m ((c : Thread nD τ).loc main_arg2)⟩, ⟨S128x128, m ((c : Thread nD τ).loc main_arg3)⟩, ⟨S128x128, m ((c : Thread nD τ).loc main_arg4)⟩] concatenates_S128x128_S128x128_S128x128_S128x128_S512x128_d0 :=
  Chain.after0_v0 (Hand.W0 (F := Ideal) m ρ c)

/-- An argument that is no array of region 0 is, after region 0, as launched. -/
theorem W2_arg (c : Dev nD) (r : Ref sig .tc) (h0 : ∀ w, Pipeline.arrRef spec0 w ≠ r) (h2 : r ∉ (Hand.hostOps0_W : List (Ref sig .tc))) :
    Hand.W2 m ρ c (Proc.devRef .tc r) = m ((c : Thread nD τ).loc r) :=
  (Hand.W2_of_ne m ρ c r h0).trans (Hand.W1_of m ρ c r h2)

/-! ## Region 0's outputs are the four projections -/

/-- Region 0's output 0 is the node features projected by weight matrix 0: row p against row q of that matrix,
    which is row q of the stacked weights. -/
theorem proj0 (c : Dev nD) : (Hand.W2 m ρ c (Proc.devRef .tc main_v1_0) : FVec Ideal S50000x128 .f32) = dotR (m ((c : Thread nD τ).loc main_arg0)) (m ((c : Thread nD τ).loc main_arg1)) := by
  refine ((Hand.W2_out m ρ c 2).trans (Cert.KernelIdeal.KValue.final0_2 (Hand.V1 m ρ) c)).trans ?_
  rw [V1_x, V1_wcat]
  funext i
  obtain ⟨p, q, rfl⟩ : ∃ (p : Fin 50000) (q : Fin 128), i = ix2 p q := ⟨i 0, i 1, eq_ix2 i⟩
  rw [Cert.KernelIdeal.KValue.projArr_apply, dotR_apply]
  refine Finset.sum_congr rfl fun k _ => congrArg _ ?_
  have hr : (⟨128 * ((0 : Fin 4) : ℕ) + q.val, by have := q.isLt; show 128 * 0 + q.val < 512; omega⟩ : Fin 512)
      = (⟨q.val, by have := q.isLt; omega⟩ : Fin 512) := Fin.ext (Nat.zero_add _)
  exact (congrArg (fun r : Fin 512 => (concatenate S512x128 0 [⟨S128x128, m ((c : Thread nD τ).loc main_arg1)⟩, ⟨S128x128, m ((c : Thread nD τ).loc main_arg2)⟩, ⟨S128x128, m ((c : Thread nD τ).loc main_arg3)⟩, ⟨S128x128, m ((c : Thread nD τ).loc main_arg4)⟩] concatenates_S128x128_S128x128_S128x128_S128x128_S512x128_d0) (ix2 r k)) hr).trans (Pay.wcat_apply0 _ _ _ _ q k)

/-- Region 0's output 1 is the node features projected by weight matrix 1: row p against row q of that matrix,
    which is row 128·1 + q of the stacked weights. -/
theorem proj1 (c : Dev nD) : (Hand.W2 m ρ c (Proc.devRef .tc main_v1_1) : FVec Ideal S50000x128 .f32) = dotR (m ((c : Thread nD τ).loc main_arg0)) (m ((c : Thread nD τ).loc main_arg2)) := by
  refine ((Hand.W2_out m ρ c 3).trans (Cert.KernelIdeal.KValue.final0_3 (Hand.V1 m ρ) c)).trans ?_
  rw [V1_x, V1_wcat]
  funext i
  obtain ⟨p, q, rfl⟩ : ∃ (p : Fin 50000) (q : Fin 128), i = ix2 p q := ⟨i 0, i 1, eq_ix2 i⟩
  rw [Cert.KernelIdeal.KValue.projArr_apply, dotR_apply]
  exact Finset.sum_congr rfl fun k _ => congrArg _ (Pay.wcat_apply1 _ _ _ _ q k)

/-- Region 0's output 2 is the node features projected by weight matrix 2: row p against row q of that matrix,
    which is row 128·2 + q of the stacked weights. -/
theorem proj2 (c : Dev nD) : (Hand.W2 m ρ c (Proc.devRef .tc main_v1_2) : FVec Ideal S50000x128 .f32) = dotR (m ((c : Thread nD τ).loc main_arg0)) (m ((c : Thread nD τ).loc main_arg3)) := by
  refine ((Hand.W2_out m ρ c 4).trans (Cert.KernelIdeal.KValue.final0_4 (Hand.V1 m ρ) c)).trans ?_
  rw [V1_x, V1_wcat]
  funext i
  obtain ⟨p, q, rfl⟩ : ∃ (p : Fin 50000) (q : Fin 128), i = ix2 p q := ⟨i 0, i 1, eq_ix2 i⟩
  rw [Cert.KernelIdeal.KValue.projArr_apply, dotR_apply]
  exact Finset.sum_congr rfl fun k _ => congrArg _ (Pay.wcat_apply2 _ _ _ _ q k)

/-- Region 0's output 3 is the node features projected by weight matrix 3: row p against row q of that matrix,
    which is row 128·3 + q of the stacked weights. -/
theorem proj3 (c : Dev nD) : (Hand.W2 m ρ c (Proc.devRef .tc main_v1_3) : FVec Ideal S50000x128 .f32) = dotR (m ((c : Thread nD τ).loc main_arg0)) (m ((c : Thread nD τ).loc main_arg4)) := by
  refine ((Hand.W2_out m ρ c 5).trans (Cert.KernelIdeal.KValue.final0_5 (Hand.V1 m ρ) c)).trans ?_
  rw [V1_x, V1_wcat]
  funext i
  obtain ⟨p, q, rfl⟩ : ∃ (p : Fin 50000) (q : Fin 128), i = ix2 p q := ⟨i 0, i 1, eq_ix2 i⟩
  rw [Cert.KernelIdeal.KValue.projArr_apply, dotR_apply]
  exact Finset.sum_congr rfl fun k _ => congrArg _ (Pay.wcat_apply3 _ _ _ _ q k)

/-! ## What region 1 is entered with -/

/-- Relation 0's normalised aggregate, as region 1 finds it, is the shared chain applied to the reference's projection. -/
theorem agg0 (c : Dev nD) : (Hand.V3 m ρ c main_v20 : FVec Ideal S50000x128 .f32) = aggR (dotR (m ((c : Thread nD τ).loc main_arg0)) (m ((c : Thread nD τ).loc main_arg1))) (m ((c : Thread nD τ).loc main_arg6)) (m ((c : Thread nD τ).loc main_arg7)) := by
  refine (Chain.after1_v20 (Hand.W2 m ρ c)).trans ?_
  rw [proj0, W2_arg m ρ c main_arg6 (by decide) (by decide), W2_arg m ρ c main_arg7 (by decide) (by decide)]
  exact aggK_eq _ _ _

/-- Relation 1's normalised aggregate, as region 1 finds it, is the shared chain applied to the reference's projection. -/
theorem agg1 (c : Dev nD) : (Hand.V3 m ρ c main_v39 : FVec Ideal S50000x128 .f32) = aggR (dotR (m ((c : Thread nD τ).loc main_arg0)) (m ((c : Thread nD τ).loc main_arg2))) (m ((c : Thread nD τ).loc main_arg8)) (m ((c : Thread nD τ).loc main_arg9)) := by
  refine (Chain.after1_v39 (Hand.W2 m ρ c)).trans ?_
  rw [proj1, W2_arg m ρ c main_arg8 (by decide) (by decide), W2_arg m ρ c main_arg9 (by decide) (by decide)]
  exact aggK_eq _ _ _

/-- Relation 2's normalised aggregate, as region 1 finds it, is the shared chain applied to the reference's projection. -/
theorem agg2 (c : Dev nD) : (Hand.V3 m ρ c main_v58 : FVec Ideal S50000x128 .f32) = aggR (dotR (m ((c : Thread nD τ).loc main_arg0)) (m ((c : Thread nD τ).loc main_arg3))) (m ((c : Thread nD τ).loc main_arg10)) (m ((c : Thread nD τ).loc main_arg11)) := by
  refine (Chain.after1_v58 (Hand.W2 m ρ c)).trans ?_
  rw [proj2, W2_arg m ρ c main_arg10 (by decide) (by decide), W2_arg m ρ c main_arg11 (by decide) (by decide)]
  exact aggK_eq _ _ _

/-- The self projection passes through the host stretch. -/
theorem self3 (c : Dev nD) : (Hand.V3 m ρ c main_v1_3 : FVec Ideal S50000x128 .f32) = dotR (m ((c : Thread nD τ).loc main_arg0)) (m ((c : Thread nD τ).loc main_arg4)) :=
  (Chain.after1_v1_3 (Hand.W2 m ρ c)).trans (proj3 m ρ c)

/-- The bias row read at column q is the bias vector at q. -/
theorem bias_row (c : Dev nD) (q : Fin 128) : (Hand.V3 m ρ c main_v59 : FVec Ideal S1x128 .f32) (ix2 (0 : Fin 1) q) = (m ((c : Thread nD τ).loc main_arg5)) (ix1 q) := by
  refine (congrFun (Chain.after1_v59 (Hand.W2 m ρ c)) (ix2 (0 : Fin 1) q)).trans ?_
  rw [W2_arg m ρ c main_arg5 (by decide) (by decide)]
  exact shapeCast_a_1a_apply _ _ (0 : Fin 1) q

/-! ## The result -/

/-- The program's result buffer at the end of the run, at row p and column q. -/
theorem result_apply (c : Dev nD) (p : Fin 50000) (q : Fin 128) :
    (Hand.W4 m ρ c (Proc.devRef .tc main_v60) : FVec Ideal S50000x128 .f32) (ix2 p q)
      = max ((((aggR (dotR (m ((c : Thread nD τ).loc main_arg0)) (m ((c : Thread nD τ).loc main_arg1))) (m ((c : Thread nD τ).loc main_arg6)) (m ((c : Thread nD τ).loc main_arg7)) (ix2 p q)
          + aggR (dotR (m ((c : Thread nD τ).loc main_arg0)) (m ((c : Thread nD τ).loc main_arg2))) (m ((c : Thread nD τ).loc main_arg8)) (m ((c : Thread nD τ).loc main_arg9)) (ix2 p q))
          + aggR (dotR (m ((c : Thread nD τ).loc main_arg0)) (m ((c : Thread nD τ).loc main_arg3))) (m ((c : Thread nD τ).loc main_arg10)) (m ((c : Thread nD τ).loc main_arg11)) (ix2 p q))
          + dotR (m ((c : Thread nD τ).loc main_arg0)) (m ((c : Thread nD τ).loc main_arg4)) (ix2 p q)) + (m ((c : Thread nD τ).loc main_arg5)) (ix1 q)) 0 := by
  refine (congrFun ((Hand.W4_result m ρ c).trans (Cert.KernelIdeal.KValue.final1_5 (Hand.V3 m ρ) c)) (ix2 p q)).trans ?_
  rw [Cert.KernelIdeal.KValue.combArr_apply, agg0, agg1, agg2, self3, bias_row]

end Cert.Bridge

end
-- ==== Proof.lean ====
/-
  The certificate of the relational graph-convolution layer: a kernel program of two pipelined regions around a
  stretch of host operations, against a plain reference.

  The kernel stacks the four weight matrices, projects the node features by all four at once in region 0 (one
  product per block of 2000 rows, its four 128-column slices stored as four arrays), aggregates the first three
  projections along the edges on the host (gather at the sources, scatter-add at the destinations, divide by the
  clamped in-degree), and in region 1 adds the three aggregates, the fourth projection and the bias and rectifies.
  The reference projects by each matrix separately and does the same host operations and the same final sum. At
  the exact instance the stacked product's slice s is the product with matrix s, term by term of the same sum, so
  the two results agree index by index; no law beyond that re-indexing is used, and the precondition is not needed.

  The frames: each kernel program runs as four segments (host, region, host, region); each region's body loads
  whole staging buffers and stores whole staging buffers, so the pipeline's proof data name every output buffer,
  and every argument is either read through an input window or bypassed. The reference's frame is its run with
  the result dropped.
-/
import proofs.«128560_j83330955477834_1_alg».proof.Defs
import proofs.«128560_j83330955477834_1_alg».proof.Proof.Gen.Kernel
import proofs.«128560_j83330955477834_1_alg».proof.Proof.Gen.KernelIdeal
import proofs.«128560_j83330955477834_1_alg».proof.Proof.Gen.ReferenceIdeal
import proofs.«128560_j83330955477834_1_alg».proof.Proof.Gen.ReferenceIdeal.Run
import proofs.«128560_j83330955477834_1_alg».proof.Proof.Gen.ReferenceIdeal.Read
import proofs.«128560_j83330955477834_1_alg».proof.Proof.Gen.Pre_finite_inputs
import proofs.«128560_j83330955477834_1_alg».proof.Proof.K.Run
import proofs.«128560_j83330955477834_1_alg».proof.Proof.KI.Run
import proofs.«128560_j83330955477834_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ

theorem frame_ki : Cert.frame_KernelIdeal := fun m ρ _ => Cert.KernelIdeal.Hand.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- Both programs end, from memories agreeing on the arguments, with the same result: the kernel program's result
    buffer read index by index is the reference's composed term read index by index. -/
theorem algebraic : Cert.algebraic_KernelIdeal_ReferenceIdeal := by
  intro m ρ m' ρ' _ hagree
  refine ⟨fun c => Cert.KernelIdeal.Hand.W4 (F := Ideal) m ρ c (Proc.devRef .tc Cert.KernelIdeal.main_v60), ?_, ?_⟩
  · exact (θ_run Cert.KernelIdeal.defs _ _).mono (fun r h c =>
      ⟨h c _ (Cert.KernelIdeal.Hand.mem_uc Cert.KernelIdeal.main_v60 (by decide)),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c),
       (h c _ (Cert.KernelIdeal.Hand.mem_uc Cert.KernelIdeal.main_arg3 (by decide))).trans (Cert.KernelIdeal.Hand.W4_main_arg3 m ρ c),
       (h c _ (Cert.KernelIdeal.Hand.mem_uc Cert.KernelIdeal.main_arg4 (by decide))).trans (Cert.KernelIdeal.Hand.W4_main_arg4 m ρ c),
       (h c _ (Cert.KernelIdeal.Hand.mem_uc Cert.KernelIdeal.main_arg5 (by decide))).trans (Cert.KernelIdeal.Hand.W4_main_arg5 m ρ c),
       (h c _ (Cert.KernelIdeal.Hand.mem_uc Cert.KernelIdeal.main_arg6 (by decide))).trans (Cert.KernelIdeal.Hand.W4_main_arg6 m ρ c),
       (h c _ (Cert.KernelIdeal.Hand.mem_uc Cert.KernelIdeal.main_arg7 (by decide))).trans (Cert.KernelIdeal.Hand.W4_main_arg7 m ρ c),
       (h c _ (Cert.KernelIdeal.Hand.mem_uc Cert.KernelIdeal.main_arg8 (by decide))).trans (Cert.KernelIdeal.Hand.W4_main_arg8 m ρ c),
       (h c _ (Cert.KernelIdeal.Hand.mem_uc Cert.KernelIdeal.main_arg9 (by decide))).trans (Cert.KernelIdeal.Hand.W4_main_arg9 m ρ c),
       (h c _ (Cert.KernelIdeal.Hand.mem_uc Cert.KernelIdeal.main_arg10 (by decide))).trans (Cert.KernelIdeal.Hand.W4_main_arg10 m ρ c),
       (h c _ (Cert.KernelIdeal.Hand.mem_uc Cert.KernelIdeal.main_arg11 (by decide))).trans (Cert.KernelIdeal.Hand.W4_main_arg11 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    funext i
    obtain ⟨p, q, rfl⟩ : ∃ (p : Fin 50000) (q : Fin 128), i = ix2 p q := ⟨i 0, i 1, eq_ix2 i⟩
    refine (Cert.ReferenceIdeal.RefValue.res_apply m' c p q).trans ?_
    obtain ⟨e0, e1, e2, e3, e4, e5, e6, e7, e8, e9, e10, e11⟩ := hagree c
    rw [e0, e1, e2, e3, e4, e5, e6, e7, e8, e9, e10, e11]
    exact (Cert.Bridge.result_apply m ρ c p q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
